-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x512 : Shape := ⟨3, ![2, 1024, 512]⟩
abbrev S1024x32 : Shape := ⟨2, ![1024, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32x1 .f32) (main_arg5 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2x1024x512 .f32) (main_arg1 : FVec F S2x1024x512 .f32) (main_arg2 : FVec F S1024x32 .f32) (main_arg3 : FVec F S32 .f32) (main_arg4 : FVec F S32x1 .f32) (main_arg5 : FVec F S1 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S2x1024x512 .f32 := Host.absf main_arg1
  let main_cst_0 : FVec F S_ .f32 := constant S_ .f32 0x7F800000#32
  let main_v5 : FVec F S2x1024x512 .f32 := broadcastInDim S2x1024x512 ![] bcast_S_S2x1024x512 main_cst_0
  let main_v6 : IVec S2x1024x512 1 := cmpf .olt main_v4 main_v5
  let main_c_1 : IVec S_ 1 := constantI S_ 1 1#1
  let main_v7 : IVec S_ 1 := (fun x v => Host.reduce IntOp.andi x v reducesTo_S2x1024x512_S_d0_1_2 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S2x1024x512 : Shape := ⟨3, ![2, 1024, 512]⟩
abbrev S1024x32 : Shape := ⟨2, ![1024, 32]⟩
abbrev S32 : Shape := ⟨1, ![32]⟩
abbrev S32x1 : Shape := ⟨2, ![32, 1]⟩
abbrev S1 : Shape := ⟨1, ![1]⟩
abbrev S512x32 : Shape := ⟨2, ![512, 32]⟩
abbrev S2x32x1024 : Shape := ⟨3, ![2, 32, 1024]⟩
abbrev S1x1024x512 : Shape := ⟨3, ![1, 1024, 512]⟩
abbrev S1x32x1024 : Shape := ⟨3, ![1, 32, 1024]⟩
abbrev S1024x512 : Shape := ⟨2, ![1024, 512]⟩
abbrev S32x1024 : Shape := ⟨2, ![32, 1024]⟩
abbrev S1x32 : Shape := ⟨2, ![1, 32]⟩
abbrev S2x1024x32 : Shape := ⟨3, ![2, 1024, 32]⟩
abbrev S1x1024x32 : Shape := ⟨3, ![1, 1024, 32]⟩
abbrev S1x1 : Shape := ⟨2, ![1, 1]⟩
abbrev S2x1024x1024 : Shape := ⟨3, ![2, 1024, 1024]⟩
abbrev S1x128x32 : Shape := ⟨3, ![1, 128, 32]⟩
abbrev S1x128x1024 : Shape := ⟨3, ![1, 128, 1024]⟩
abbrev S128x32 : Shape := ⟨2, ![128, 32]⟩
abbrev S1x32x256 : Shape := ⟨3, ![1, 32, 256]⟩
abbrev S32x256 : Shape := ⟨2, ![32, 256]⟩
abbrev S128x32x1 : Shape := ⟨3, ![128, 32, 1]⟩
abbrev S128x32x256 : Shape := ⟨3, ![128, 32, 256]⟩
abbrev S1x32x1 : Shape := ⟨3, ![1, 32, 1]⟩
abbrev S128x256 : Shape := ⟨2, ![128, 256]⟩
abbrev S1x128x256 : Shape := ⟨3, ![1, 128, 256]⟩

abbrev nBuf : Space → Nat
  | .hbm => 14
  | .vmem => 19
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S1024x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S512x32, .f32⟩
  | .hbm, ⟨7, _⟩ => ⟨S512x32, .f32⟩
  | .hbm, ⟨8, _⟩ => ⟨S2x32x1024, .f32⟩
  | .hbm, ⟨9, _⟩ => ⟨S1x32, .f32⟩
  | .hbm, ⟨10, _⟩ => ⟨S2x1024x32, .f32⟩
  | .hbm, ⟨11, _⟩ => ⟨S1x32, .f32⟩
  | .hbm, ⟨12, _⟩ => ⟨S1x1, .f32⟩
  | .hbm, ⟨13, _⟩ => ⟨S2x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S512x32, .f32⟩
  | .local _ .vmem, ⟨3, _⟩ => ⟨S1x32x1024, .f32⟩
  | .local _ .vmem, ⟨4, _⟩ => ⟨S1x32x1024, .f32⟩
  | .local _ .vmem, ⟨5, _⟩ => ⟨S1x1024x512, .f32⟩
  | .local _ .vmem, ⟨6, _⟩ => ⟨S1x1024x512, .f32⟩
  | .local _ .vmem, ⟨7, _⟩ => ⟨S512x32, .f32⟩
  | .local _ .vmem, ⟨8, _⟩ => ⟨S1x32, .f32⟩
  | .local _ .vmem, ⟨9, _⟩ => ⟨S1x1024x32, .f32⟩
  | .local _ .vmem, ⟨10, _⟩ => ⟨S1x1024x32, .f32⟩
  | .local _ .vmem, ⟨11, _⟩ => ⟨S1x32x1024, .f32⟩
  | .local _ .vmem, ⟨12, _⟩ => ⟨S1x32x1024, .f32⟩
  | .local _ .vmem, ⟨13, _⟩ => ⟨S1x128x32, .f32⟩
  | .local _ .vmem, ⟨14, _⟩ => ⟨S1x128x32, .f32⟩
  | .local _ .vmem, ⟨15, _⟩ => ⟨S1x32, .f32⟩
  | .local _ .vmem, ⟨16, _⟩ => ⟨S1x1, .f32⟩
  | .local _ .vmem, ⟨17, _⟩ => ⟨S1x128x1024, .f32⟩
  | .local _ .vmem, ⟨18, _⟩ => ⟨S1x128x1024, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 8], ![false, false]⟩

@[reducible] def k2_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k2_mult1 (k2_t1 : Fin k2_t1_loop.trips) : BitVec 32 :=
  let c0_i32 : BitVec 32 := 0#32
  let c1_i32 : BitVec 32 := 1#32
  let arg7 : BitVec 32 := Scf.iv c0_i32 c1_i32 k2_t1
  let c256_i32 : BitVec 32 := 256#32
  let v7 : BitVec 32 := Scalar.muli arg7 c256_i32
  v7
def k2_off1 (k2_t1 : Fin k2_t1_loop.trips) : Fin 3 → Nat :=
  let c0_7 : Index := 0#32
  let c0_8 : Index := 0#32
  let c0_i32 : BitVec 32 := 0#32
  let c1_i32 : BitVec 32 := 1#32
  let arg7 : BitVec 32 := Scf.iv c0_i32 c1_i32 k2_t1
  let c256_i32 : BitVec 32 := 256#32
  let v7 : BitVec 32 := Scalar.muli arg7 c256_i32
  let v8 : BitVec 32 := v7
  let v9 : Index := Scalar.indexCast v8
  ![0, 0, v9.toNat]
def k2_off2 (k2_t1 : Fin k2_t1_loop.trips) : Fin 3 → Nat :=
  let c0_9 : Index := 0#32
  let c0_10 : Index := 0#32
  let c0_i32 : BitVec 32 := 0#32
  let c1_i32 : BitVec 32 := 1#32
  let arg7 : BitVec 32 := Scf.iv c0_i32 c1_i32 k2_t1
  let c256_i32 : BitVec 32 := 256#32
  let v7 : BitVec 32 := Scalar.muli arg7 c256_i32
  let v8 : BitVec 32 := v7
  let v24 : Index := Scalar.indexCast v8
  ![0, 0, v24.toNat]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x128x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x128x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  slices_S1024x32_S512x32_0_0 : S1024x32.Slices ![0, 0] S512x32
  slices_S1024x32_S512x32_512_0 : S1024x32.Slices ![512, 0] S512x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  transposes_S1024x32_p1_0_S32x1024 : S1024x32.Transposes [1, 0] S32x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  transposes_S32x1_S1x32_1_0 : S32x1.Transposes [1, 0] S1x32
  shapeCasts_S1_S1x1 : S1.ShapeCasts S1x1
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  shapeCasts_S1x32_S32 : S1x32.ShapeCasts S32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  h_S1x32x256 : 0 < S1x32x256.numel
  shapeCasts_S1x32x256_S32x256 : S1x32x256.ShapeCasts S32x256
  shapeCasts_S128x32_S128x32x1 : S128x32.ShapeCasts S128x32x1
  shapeCasts_S32x256_S1x32x256 : S32x256.ShapeCasts S1x32x256
  broadcasts_S128x32x1_S128x32x256 : S128x32x1.Broadcasts S128x32x256
  broadcasts_S1x32x256_S128x32x256 : S1x32x256.Broadcasts S128x32x256
  shapeCasts_S32_S1x32x1 : S32.ShapeCasts S1x32x1
  broadcasts_S1x32x1_S128x32x256 : S1x32x1.Broadcasts S128x32x256
  reduces_S128x32x256_S128x256 : S128x32x256.Reduces [1] S128x256
  h_S1x128x256 : 0 < S1x128x256.numel
  shapeCasts_S1x128x256_S128x256 : S1x128x256.ShapeCasts S128x256
  shapeCasts_S128x256_S1x128x256 : S128x256.ShapeCasts S1x128x256
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x1024x512.size a
  hwx0_0 : ∀ i : grid0.Coords, EltTy.bits .f32 = 32 ∨ (Rect.block (s := S2x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S2x32x1024.size a
  hwx0_2 : ∀ i : grid0.Coords, EltTy.bits .f32 = 32 ∨ (Rect.block (s := S2x32x1024) S1x32x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S2x1024x512.size a
  hwx1_0 : ∀ i : grid1.Coords, EltTy.bits .f32 = 32 ∨ (Rect.block (s := S2x1024x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x32.size a ≤ S512x32.size a
  hwx1_1 : ∀ i : grid1.Coords, EltTy.bits .f32 = 32 ∨ (Rect.block (s := S512x32) S512x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x32.size a ≤ S2x1024x32.size a
  hwx1_3 : ∀ i : grid1.Coords, EltTy.bits .f32 = 32 ∨ (Rect.block (s := S2x1024x32) S1x1024x32.size (cc1_transform_3 i) (hinb1_3 i)).WholeWords (EltTy.packing .f32)
  hrank2 : 0 < grid2.rank
  k2_t1_ok : k2_t1_loop.OK
  k2_mult1_dvd : ∀ k2_t1 : Fin k2_t1_loop.trips, 256 ∣ (k2_mult1 k2_t1).toNat
  k2_off1_inb : ∀ k2_t1 : Fin k2_t1_loop.trips, ∀ a, (k2_off1 k2_t1) a + S1x32x256.size a ≤ S1x32x1024.size a
  k2_off2_inb : ∀ k2_t1 : Fin k2_t1_loop.trips, ∀ a, (k2_off2 k2_t1) a + S1x128x256.size a ≤ S1x128x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S2x32x1024.size a
  hwx2_0 : ∀ i : grid2.Coords, EltTy.bits .f32 = 32 ∨ (Rect.block (s := S2x32x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x32.size a ≤ S2x1024x32.size a
  hwx2_1 : ∀ i : grid2.Coords, EltTy.bits .f32 = 32 ∨ (Rect.block (s := S2x1024x32) S1x128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x128x1024.size a ≤ S2x1024x1024.size a
  hwx2_4 : ∀ i : grid2.Coords, EltTy.bits .f32 = 32 ∨ (Rect.block (s := S2x1024x1024) S1x128x1024.size (cc2_transform_4 i) (hinb2_4 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x128x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x128x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x1024x512 : Shape := ⟨3, ![2, 1024, 512]⟩
abbrev S1024x32 : Shape := ⟨2, ![1024, 32]⟩
abbrev S32 : Shape := ⟨1, ![32]⟩
abbrev S32x1 : Shape := ⟨2, ![32, 1]⟩
abbrev S1 : Shape := ⟨1, ![1]⟩
abbrev S512x32 : Shape := ⟨2, ![512, 32]⟩
abbrev S2x1024x32 : Shape := ⟨3, ![2, 1024, 32]⟩
abbrev S2x1x1024x32 : Shape := ⟨4, ![2, 1, 1024, 32]⟩
abbrev S2x1024x1x32 : Shape := ⟨4, ![2, 1024, 1, 32]⟩
abbrev S2x1024x1024x32 : Shape := ⟨4, ![2, 1024, 1024, 32]⟩
abbrev S1x1x1x32 : Shape := ⟨4, ![1, 1, 1, 32]⟩
abbrev S2x1024x1024x1 : Shape := ⟨4, ![2, 1024, 1024, 1]⟩
abbrev S2x1024x1024 : Shape := ⟨3, ![2, 1024, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S1024x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S512x32, .f32⟩
  | .hbm, ⟨7, _⟩ => ⟨S2x1024x32, .f32⟩
  | .hbm, ⟨8, _⟩ => ⟨S512x32, .f32⟩
  | .hbm, ⟨9, _⟩ => ⟨S2x1024x32, .f32⟩
  | .hbm, ⟨10, _⟩ => ⟨S2x1x1024x32, .f32⟩
  | .hbm, ⟨11, _⟩ => ⟨S2x1024x1x32, .f32⟩
  | .hbm, ⟨12, _⟩ => ⟨S2x1024x1024x32, .f32⟩
  | .hbm, ⟨13, _⟩ => ⟨S2x1024x1024x32, .f32⟩
  | .hbm, ⟨14, _⟩ => ⟨S2x1024x1024x32, .f32⟩
  | .hbm, ⟨15, _⟩ => ⟨S1x1x1x32, .f32⟩
  | .hbm, ⟨16, _⟩ => ⟨S2x1024x1024x32, .f32⟩
  | .hbm, ⟨17, _⟩ => ⟨S2x1024x1024x32, .f32⟩
  | .hbm, ⟨18, _⟩ => ⟨S2x1024x1024x32, .f32⟩
  | .hbm, ⟨19, _⟩ => ⟨S2x1024x1024x1, .f32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S1024x32_S512x32_0_0 : S1024x32.Slices ![0, 0] S512x32
  slices_S1024x32_S512x32_512_0 : S1024x32.Slices ![512, 0] S512x32
  bcast_S2x1024x32_S2x1x1024x32_0_2_3 : S2x1024x32.BroadcastsInDim S2x1x1024x32 (![0, 2, 3] : Fin 3 → Fin S2x1x1024x32.rank)
  bcast_S2x1024x32_S2x1024x1x32_0_1_3 : S2x1024x32.BroadcastsInDim S2x1024x1x32 (![0, 1, 3] : Fin 3 → Fin S2x1024x1x32.rank)
  bcast_S2x1x1024x32_S2x1024x1024x32_0_1_2_3 : S2x1x1024x32.BroadcastsInDim S2x1024x1024x32 (![0, 1, 2, 3] : Fin 4 → Fin S2x1024x1024x32.rank)
  bcast_S2x1024x1x32_S2x1024x1024x32_0_1_2_3 : S2x1024x1x32.BroadcastsInDim S2x1024x1024x32 (![0, 1, 2, 3] : Fin 4 → Fin S2x1024x1024x32.rank)
  bcast_S32_S1x1x1x32_3 : S32.BroadcastsInDim S1x1x1x32 (![3] : Fin 1 → Fin S1x1x1x32.rank)
  bcast_S1x1x1x32_S2x1024x1024x32_0_1_2_3 : S1x1x1x32.BroadcastsInDim S2x1024x1024x32 (![0, 1, 2, 3] : Fin 4 → Fin S2x1024x1024x32.rank)
  shapeCasts_S2x1024x1024x1_S2x1024x1024 : S2x1024x1024x1.ShapeCasts S2x1024x1024
  shapeCasts_S1_S_ : S1.ShapeCasts S_
  bcast_S_S2x1024x1024 : S_.BroadcastsInDim S2x1024x1024 (![] : Fin 0 → Fin S2x1024x1024.rank)
  dot_S2x1024x512_S512x32_S2x1024x32_2_0_01_1_n_n_wf : DotDims.WF S2x1024x512 S512x32 S2x1024x32 [2] [0] [0, 1] [1] [] []
  dot_S2x1024x1024x32_S32x1_S2x1024x1024x1_3_0_012_1_n_n_wf : DotDims.WF S2x1024x1024x32 S32x1 S2x1024x1024x1 [3] [0] [0, 1, 2] [1] [] []

variable [Facts₀]

def dot_S2x1024x512_S512x32_S2x1024x32_2_0_01_1_n_n : DotDims S2x1024x512 S512x32 S2x1024x32 where
  lhsContracting := [2]
  rhsContracting := [0]
  lhsNonContracting := [0, 1]
  rhsNonContracting := [1]
  lhsBatch := []
  rhsBatch := []
  wf := dot_S2x1024x512_S512x32_S2x1024x32_2_0_01_1_n_n_wf
def dot_S2x1024x1024x32_S32x1_S2x1024x1024x1_3_0_012_1_n_n : DotDims S2x1024x1024x32 S32x1 S2x1024x1024x1 where
  lhsContracting := [3]
  rhsContracting := [0]
  lhsNonContracting := [0, 1, 2]
  rhsNonContracting := [1]
  lhsBatch := []
  rhsBatch := []
  wf := dot_S2x1024x1024x32_S32x1_S2x1024x1024x1_3_0_012_1_n_n_wf

class Facts : Prop extends Facts₀ where

variable [Facts]
-- ==== Proof.ScoreSpec.lean ====
/-
  The additive-attention score, as one function of the six argument arrays, over the extended reals.

  With keys, queries : [2, 1024, 512], W1 : [1024, 32], b1 : [32], W2 : [32, 1], b2 : [1]:

    keyHidden   [b, h, k] = Σ_d keys[b, k, d] · W1[d, h]                       (rows 0..511 of W1; stored transposed)
    queryHidden [b, q, h] = Σ_d queries[b, q, d] · W1[512 + d, h] + b1[h]       (rows 512..1023 of W1; the bias folded in)
    score       [b, q, k] = Σ_h tanh (queryHidden[b, q, h] + keyHidden[b, h, k]) · W2[h, 0] + b2[0]

  The two hidden arrays are stated over an arbitrary [512, 32] weight and an arbitrary [1, 32] bias row, so that each
  stage can be proved of whatever arrays it finds; the halves of W1, the bias as a row, W2 as a row and b2 as a cell
  are the layout changes the host makes between the stages.
-/
import Idealize.ShloMosaic.PureOps.Ideal
import Idealize.ShloMosaic.Lib.ValueIdx

noncomputable section

namespace Cert.Score

open Idealize.ShloMosaic Idealize.ShloMosaic.ValueIdx

/-! ## Shapes -/

abbrev SAct : Shape := ⟨3, ![2, 1024, 512]⟩
abbrev SW1 : Shape := ⟨2, ![1024, 32]⟩
abbrev SHalf : Shape := ⟨2, ![512, 32]⟩
abbrev SB1 : Shape := ⟨1, ![32]⟩
abbrev SRow : Shape := ⟨2, ![1, 32]⟩
abbrev SW2 : Shape := ⟨2, ![32, 1]⟩
abbrev SB2 : Shape := ⟨1, ![1]⟩
abbrev SCell : Shape := ⟨2, ![1, 1]⟩
abbrev SKeyT : Shape := ⟨3, ![2, 32, 1024]⟩
abbrev SQry : Shape := ⟨3, ![2, 1024, 32]⟩
abbrev SOut : Shape := ⟨3, ![2, 1024, 1024]⟩

/-! ## The layout changes between the stages -/

/-- Row `d` of the upper half of the first-layer weight is row `d` of the whole. -/
def loRow (d : Fin 512) : Fin 1024 := ⟨d.val, by have := d.isLt; omega⟩
/-- Row `d` of the lower half of the first-layer weight is row `512 + d` of the whole. -/
def hiRow (d : Fin 512) : Fin 1024 := ⟨512 + d.val, by have := d.isLt; omega⟩

/-- Rows 0..511 of the first-layer weight: the part that multiplies the keys. -/
def loHalf (W1 : SW1.Idx → EReal) : SHalf.Idx → EReal := fun i => W1 (ix2 (loRow (i 0)) (i 1))
/-- Rows 512..1023 of the first-layer weight: the part that multiplies the queries. -/
def hiHalf (W1 : SW1.Idx → EReal) : SHalf.Idx → EReal := fun i => W1 (ix2 (hiRow (i 0)) (i 1))
/-- The hidden bias as a one-row matrix. -/
def biasRow (b1 : SB1.Idx → EReal) : SRow.Idx → EReal := fun i => b1 (ix1 (i 1))
/-- The second-layer weight, a column, as a one-row matrix. -/
def weightRow (W2 : SW2.Idx → EReal) : SRow.Idx → EReal := fun i => W2 (ix2 (i 1) (i 0))
/-- The output bias as a one-cell matrix. -/
def biasCell (b2 : SB2.Idx → EReal) : SCell.Idx → EReal := fun _ => b2 (ix1 0)

/-! ## The stages -/

/-- One entry of a projection: row `n` of batch `b` of the activations against column `h` of a [512, 32] weight. -/
def proj (x : SAct.Idx → EReal) (W : SHalf.Idx → EReal) (b : Fin 2) (n : Fin 1024) (h : Fin 32) : EReal :=
  ∑ d : Fin 512, x (ix3 b n d) * W (ix2 d h)

/-- The projection stored transposed, hidden unit before position: entry [b, h, n]. -/
def projT (x : SAct.Idx → EReal) (W : SHalf.Idx → EReal) : SKeyT.Idx → EReal :=
  fun i => proj x W (i 0) (i 2) (i 1)

/-- The projection with a bias row added to every position: entry [b, n, h]. -/
def projB (x : SAct.Idx → EReal) (W : SHalf.Idx → EReal) (brow : SRow.Idx → EReal) : SQry.Idx → EReal :=
  fun i => proj x W (i 0) (i 1) (i 2) + brow (ix2 0 (i 2))

/-- One score: over the hidden units, tanh of the query's hidden value plus the key's, weighted, plus the output bias. -/
def scoreAt (HKT : SKeyT.Idx → EReal) (HQ : SQry.Idx → EReal) (wrow : SRow.Idx → EReal) (cell : SCell.Idx → EReal)
    (b : Fin 2) (q k : Fin 1024) : EReal :=
  (∑ h : Fin 32, Ideal.tanh (HQ (ix3 b q h) + HKT (ix3 b h k)) * wrow (ix2 0 h)) + cell (ix2 0 0)

/-- The scores of every (batch, query, key) from the two hidden arrays. -/
def scoreOf (HKT : SKeyT.Idx → EReal) (HQ : SQry.Idx → EReal) (wrow : SRow.Idx → EReal) (cell : SCell.Idx → EReal) :
    SOut.Idx → EReal :=
  fun i => scoreAt HKT HQ wrow cell (i 0) (i 1) (i 2)

/-- The keys' hidden array, from the arguments. -/
def keyHidden (keys : SAct.Idx → EReal) (W1 : SW1.Idx → EReal) : SKeyT.Idx → EReal := projT keys (loHalf W1)
/-- The queries' hidden array with the hidden bias folded in, from the arguments. -/
def queryHidden (queries : SAct.Idx → EReal) (W1 : SW1.Idx → EReal) (b1 : SB1.Idx → EReal) : SQry.Idx → EReal :=
  projB queries (hiHalf W1) (biasRow b1)

/-- The whole computation: the score array as a function of the six arguments. -/
def score (keys queries : SAct.Idx → EReal) (W1 : SW1.Idx → EReal) (b1 : SB1.Idx → EReal) (W2 : SW2.Idx → EReal)
    (b2 : SB2.Idx → EReal) : SOut.Idx → EReal :=
  scoreOf (keyHidden keys W1) (queryHidden queries W1 b1) (weightRow W2) (biasCell b2)

/-! ## The stages read at coordinates -/

theorem projT_apply (x : SAct.Idx → EReal) (W : SHalf.Idx → EReal) (b : Fin 2) (h : Fin 32) (n : Fin 1024) :
    projT x W (ix3 b h n) = proj x W b n h := rfl

theorem projB_apply (x : SAct.Idx → EReal) (W : SHalf.Idx → EReal) (brow : SRow.Idx → EReal) (b : Fin 2) (n : Fin 1024)
    (h : Fin 32) : projB x W brow (ix3 b n h) = proj x W b n h + brow (ix2 0 h) := rfl

theorem scoreOf_apply (HKT : SKeyT.Idx → EReal) (HQ : SQry.Idx → EReal) (wrow : SRow.Idx → EReal) (cell : SCell.Idx → EReal)
    (b : Fin 2) (q k : Fin 1024) : scoreOf HKT HQ wrow cell (ix3 b q k) = scoreAt HKT HQ wrow cell b q k := rfl

/-- One score spelt from the arguments: the hidden pre-activation is (query projection + b1) + key projection. -/
theorem score_apply (keys queries : SAct.Idx → EReal) (W1 : SW1.Idx → EReal) (b1 : SB1.Idx → EReal) (W2 : SW2.Idx → EReal)
    (b2 : SB2.Idx → EReal) (b : Fin 2) (q k : Fin 1024) :
    score keys queries W1 b1 W2 b2 (ix3 b q k)
      = (∑ h : Fin 32, Ideal.tanh ((proj queries (hiHalf W1) b q h + b1 (ix1 h)) + proj keys (loHalf W1) b k h)
            * W2 (ix2 h 0)) + b2 (ix1 0) := rfl

end Cert.Score

end
-- ==== Proof.RefScore.lean ====
/-
  The reference program computes the additive-attention score.

  Read one element at a time, the reference's last array at (b, q, k) is

    Σ_h tanh ((keyProj[b, k, h] + queryProj[b, q, h]) + b1[h]) · W2[h, 0] + b2[0]

  where keyProj contracts the keys against rows 0..511 of W1 and queryProj contracts the queries against rows
  512..1023.  The specification groups the same three summands as (queryProj + b1) + keyProj.  Addition of
  extended reals is commutative and associative without any finiteness assumption, so the two groupings are
  equal and nothing about the inputs is used.
-/
import proofs.«143010_j6597069767500_2_alg».proof.Proof.Gen.ReferenceIdeal.Read
import proofs.«143010_j6597069767500_2_alg».proof.Proof.ScoreSpec
import Idealize.ShloMosaic.Lib.Pipeline.Value
import Idealize.ShloMosaic.Lib.ValueIdx
import Idealize.ShloMosaic.PureOps.Ideal

noncomputable section

namespace Cert.ReferenceIdeal.RefValue

open Idealize.ShloMosaic Idealize.ShloMosaic.ValueIdx Cert.ReferenceIdeal

/-! ## The one-element array as a scalar -/

/-- Reshaping a one-element vector to rank 0 keeps its element: both shapes have a single row-major position. -/
theorem val_main_v15_apply (x5 : FVec Ideal S1 .f32) (j : S_.Idx) :
    Read.val_main_v15 (F := Ideal) x5 j = x5 (ix1 0) := by
  unfold Read.val_main_v15
  refine shapeCast_apply x5 _ j (ix1 0) ?_
  rw [Shape.rowMajor_val_one]
  show ((ix1 (0 : Fin 1)) 0).val = (Shape.rowMajorPi _ j).val
  rw [Shape.rowMajorPi_zero]
  rfl

/-! ## The two projections -/

/-- The first contraction is the keys' projection against the upper half of the first-layer weight. -/
theorem val_main_v1_eq (x0 : FVec Ideal S2x1024x512 .f32) (x2 : FVec Ideal S1024x32 .f32) (b : Fin 2) (n : Fin 1024)
    (h : Fin 32) :
    Read.val_main_v1 (F := Ideal) x0 x2 (ix3 b n h) = Cert.Score.proj x0 (Cert.Score.loHalf x2) b n h := by
  rw [Read.val_main_v1_apply]
  unfold Cert.Score.proj
  refine Finset.sum_congr rfl fun d _ => ?_
  rw [Read.val_main_v0_apply]
  have el : Read.lidx_main_v1 (ix3 b n h) d = ix3 b n d :=
    funext fun a => Fin.ext (by match a with | ⟨0, _⟩ => rfl | ⟨1, _⟩ => rfl | ⟨2, _⟩ => rfl)
  have er : Read.idx_main_v0 (Read.ridx_main_v1 (ix3 b n h) d) = ix2 (Cert.Score.loRow d) h :=
    funext fun a => Fin.ext (by match a with | ⟨0, _⟩ => rfl | ⟨1, _⟩ => rfl)
  rw [el, er]
  rfl

/-- The second contraction is the queries' projection against the lower half of the first-layer weight. -/
theorem val_main_v3_eq (x1 : FVec Ideal S2x1024x512 .f32) (x2 : FVec Ideal S1024x32 .f32) (b : Fin 2) (n : Fin 1024)
    (h : Fin 32) :
    Read.val_main_v3 (F := Ideal) x1 x2 (ix3 b n h) = Cert.Score.proj x1 (Cert.Score.hiHalf x2) b n h := by
  rw [Read.val_main_v3_apply]
  unfold Cert.Score.proj
  refine Finset.sum_congr rfl fun d _ => ?_
  rw [Read.val_main_v2_apply]
  have el : Read.lidx_main_v3 (ix3 b n h) d = ix3 b n d :=
    funext fun a => Fin.ext (by match a with | ⟨0, _⟩ => rfl | ⟨1, _⟩ => rfl | ⟨2, _⟩ => rfl)
  have er : Read.idx_main_v2 (Read.ridx_main_v3 (ix3 b n h) d) = ix2 (Cert.Score.hiRow d) h :=
    funext fun a => Fin.ext (by match a with | ⟨0, _⟩ => rfl | ⟨1, _⟩ => rfl)
  rw [el, er]
  rfl

/-! ## The hidden pre-activation -/

/-- Before the tanh, entry (b, q, k, h) is the key's projection at (b, k, h) plus the query's at (b, q, h), plus the
    hidden bias at h: each summand was broadcast along the axes it does not depend on. -/
theorem val_main_v11_eq (x0 x1 : FVec Ideal S2x1024x512 .f32) (x2 : FVec Ideal S1024x32 .f32) (x3 : FVec Ideal S32 .f32)
    (b : Fin 2) (q k : Fin 1024) (h : Fin 32) :
    Read.val_main_v11 (F := Ideal) x0 x1 x2 x3 (ix4 b q k h)
      = (Cert.Score.proj x0 (Cert.Score.loHalf x2) b k h + Cert.Score.proj x1 (Cert.Score.hiHalf x2) b q h)
          + x3 (ix1 h) := by
  have e6 : Read.idx_main_v4 (Read.idx_main_v6 (ix4 b q k h)) = ix3 b k h :=
    funext fun a => Fin.ext (by match a with | ⟨0, _⟩ => rfl | ⟨1, _⟩ => rfl | ⟨2, _⟩ => rfl)
  have e7 : Read.idx_main_v5 (Read.idx_main_v7 (ix4 b q k h)) = ix3 b q h :=
    funext fun a => Fin.ext (by match a with | ⟨0, _⟩ => rfl | ⟨1, _⟩ => rfl | ⟨2, _⟩ => rfl)
  have e10 : Read.idx_main_v9 (Read.idx_main_v10 (ix4 b q k h)) = ix1 h :=
    funext fun a => Fin.ext (by match a with | ⟨0, _⟩ => rfl)
  rw [Read.val_main_v11_apply, Read.val_main_v8_apply, Read.val_main_v6_apply, Read.val_main_v4_apply,
    Read.val_main_v7_apply, Read.val_main_v5_apply, Read.val_main_v10_apply, Read.val_main_v9_apply,
    e6, e7, e10, val_main_v1_eq, val_main_v3_eq, Ideal.addf_def, Ideal.addf_def]

/-! ## The reference is the specification -/

theorem reference_eq_score (x0 x1 : FVec Ideal S2x1024x512 .f32) (x2 : FVec Ideal S1024x32 .f32) (x3 : FVec Ideal S32 .f32)
    (x4 : FVec Ideal S32x1 .f32) (x5 : FVec Ideal S1 .f32) :
    Cert.ReferenceIdeal.Read.val_main_v17 (F := Ideal) x0 x1 x2 x3 x4 x5 = Cert.Score.score x0 x1 x2 x3 x4 x5 := by
  funext i
  obtain ⟨b, q, k, rfl⟩ : ∃ (b : Fin 2) (q k : Fin 1024), i = ix3 b q k := ⟨i 0, i 1, i 2, eq_ix3 i⟩
  rw [Cert.Score.score_apply, Read.val_main_v17_apply, Read.val_main_v14_apply, Read.val_main_v13_apply,
    Read.val_main_v16_apply, val_main_v15_apply, Ideal.addf_def]
  refine congrArg₂ (· + ·) (Finset.sum_congr rfl fun h _ => ?_) rfl
  -- the reshape that drops the trailing unit axis: position ((b·1024 + q)·1024 + k) splits back into (b, q, k)
  have el : Read.lidx_main_v13 (Read.idx_main_v14 (ix3 b q k)) h = ix4 b q k h :=
    funext fun a => Fin.ext (by
      have hb : b.val < 2 := b.isLt
      have hq : q.val < 1024 := q.isLt
      have hk : k.val < 1024 := k.isLt
      match a with
      | ⟨0, _⟩ => show ((b.val * 1024 + q.val) * 1024 + k.val) / 1048576 = b.val; omega
      | ⟨1, _⟩ => show ((b.val * 1024 + q.val) * 1024 + k.val) / 1024 % 1024 = q.val; omega
      | ⟨2, _⟩ => show ((b.val * 1024 + q.val) * 1024 + k.val) / 1 % 1024 = k.val; omega
      | ⟨3, _⟩ => rfl)
  have er : Read.ridx_main_v13 (Read.idx_main_v14 (ix3 b q k)) h = ix2 h (0 : Fin 1) :=
    funext fun a => Fin.ext (by match a with | ⟨0, _⟩ => rfl | ⟨1, _⟩ => rfl)
  rw [el, er, Read.val_main_v12_apply, val_main_v11_eq, Ideal.hostUnary_tanh_def]
  -- (keyProj + queryProj) + b1 = (queryProj + b1) + keyProj in a commutative monoid
  rw [add_comm (Cert.Score.proj x0 (Cert.Score.loHalf x2) b k h), add_right_comm]

end Cert.ReferenceIdeal.RefValue

end
-- ==== Proof.KernelRun.lean ====
/-
  The run of the three-stage program with its result named.

  Every weakly fair execution of the program terminates without a fault; afterwards the result buffer holds the contents
  of the last boundary of the fold through the program (host operations, a stage, host operations, a stage, host
  operations, a stage), and the six argument buffers are as launched. The launch is the one that gives the program's
  frame; the only difference is that the final state is read at the result buffer too, so the value of the result is
  not forgotten.
-/
import proofs.«143010_j6597069767500_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program runs to the end, the result buffer at the last boundary's contents
    and every argument buffer unchanged. -/
theorem run : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.KeyStage.lean ====
/-
  Region 0 of the kernel program: the keys' hidden array.

  The region runs over the two batches. At batch b it loads keys[b, :, :] ([1, 1024, 512]) and the whole [512, 32]
  weight it finds in its second input buffer, multiplies them into a zero accumulator, transposes the [1024, 32]
  product and stores it as block b of a [2, 32, 1024] array:

      out[b, h, n] = Σ_d keys[b, n, d] · W[d, h].

  Over the extended reals the rounding of the operands is the identity, so this is exactly the specification's
  transposed projection `Cert.Score.projT` of whatever two arrays the region is entered with (`keyArray`). The
  weight buffer was written by the host as rows 0..511 of the first-layer weight, and nothing between region 0 and
  region 2 writes the output buffer, so region 2 finds there `Cert.Score.keyHidden` of the launch's keys and
  first-layer weight (`entry2_keyHidden`).
-/
import proofs.«143010_j6597069767500_2_alg».proof.Proof.Gen.KernelIdeal.Frame
import proofs.«143010_j6597069767500_2_alg».proof.Proof.ScoreSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KeyStage

open Idealize.ShloMosaic Idealize.ShloMosaic.TcCoe Idealize.SL.Sem Cert.KernelIdeal Cert.KernelIdeal.Gen
open Idealize.ShloMosaic.ValueIdx
open Idealize.ShloMosaic.Pipeline (Dat)

/-! ## The body's arithmetic at one entry -/

/-- The dimension numbers of the body's one matrix product: rows of the left operand against columns of the right. -/
abbrev keyDot := Cert.KernelIdeal.dot_S1024x512_S512x32_S1024x32_1_0_0_1_n_n

/-- The left operand's row is the output's row, -/
theorem keyDot_lhs_row (i : S1024x32.Idx) (q : keyDot.contr.Idx) : (keyDot.lhsIdx i q 0).val = (i 0).val := by
  unfold DotDims.lhsIdx
  rw [dif_neg (show ¬(0 : Fin S1024x512.rank) ∈ keyDot.lhsBatch by decide), dif_pos (show (0 : Fin S1024x512.rank) ∈ keyDot.lhsNonContracting by decide)]
  rfl
/-- its column the contraction coordinate; -/
theorem keyDot_lhs_col (i : S1024x32.Idx) (q : keyDot.contr.Idx) : (keyDot.lhsIdx i q 1).val = (q ⟨0, by decide⟩).val :=
  keyDot.lhsIdx_val_of_single rfl i q
/-- the right operand's row is the contraction coordinate, -/
theorem keyDot_rhs_row (i : S1024x32.Idx) (q : keyDot.contr.Idx) : (keyDot.rhsIdx i q 0).val = (q ⟨0, by decide⟩).val :=
  keyDot.rhsIdx_val_of_single rfl i q
/-- its column the output's column. -/
theorem keyDot_rhs_col (i : S1024x32.Idx) (q : keyDot.contr.Idx) : (keyDot.rhsIdx i q 1).val = (i 1).val := by
  unfold DotDims.rhsIdx
  rw [dif_neg (show ¬(1 : Fin S512x32.rank) ∈ keyDot.rhsBatch by decide), dif_pos (show (1 : Fin S512x32.rank) ∈ keyDot.rhsNonContracting by decide)]
  rfl

/-- What the body stores, at hidden unit `h` and position `n` of its one batch: the product of row `n` of the loaded
    activations with column `h` of the loaded weight, summed over the 512 features. The rounding of the operands to
    bf16 is the identity on the extended reals, the accumulator starts at zero, and the transpose and the two casts
    only move the entry. -/
theorem pay_apply (x0 : Vec Ideal S1x1024x512 .f32) (x1 : Vec Ideal S512x32 .f32) (u : Fin 1) (h : Fin 32) (n : Fin 1024) :
    k0_pay1 (F := Ideal) x0 x1 (ix3 u h n) = ∑ d : Fin 512, x0 (ix3 (0 : Fin 1) n d) * x1 (ix2 d h) := by
  unfold k0_pay1
  refine (shapeCast_ab_1ab_apply _ _ u h n).trans ?_
  refine (transpose_ix2_apply _ _ h n).trans ?_
  refine (Ideal.matmul_constant_zero_apply keyDot none _ _ (ix2 n h)).trans ?_
  rw [← Equiv.sum_comp (contrEquiv1 keyDot 512 rfl rfl).symm]
  refine Finset.sum_congr rfl fun k _ => ?_
  have hk := contrEquiv1_symm_val keyDot 512 rfl rfl k
  have el : keyDot.lhsIdx (ix2 n h) ((contrEquiv1 keyDot 512 rfl rfl).symm k) = ix2 n k := funext fun a => Fin.ext (by
    match a with
    | ⟨0, _⟩ => exact keyDot_lhs_row _ _
    | ⟨1, _⟩ => exact (keyDot_lhs_col _ _).trans hk)
  have er : keyDot.rhsIdx (ix2 n h) ((contrEquiv1 keyDot 512 rfl rfl).symm k) = ix2 k h := funext fun a => Fin.ext (by
    match a with
    | ⟨0, _⟩ => exact (keyDot_rhs_row _ _).trans hk
    | ⟨1, _⟩ => exact keyDot_rhs_col _ _)
  rw [el, er]
  show shapeCast S1024x512 x0 shapeCasts_S1x1024x512_S1024x512 (ix2 n k) * shapeCast S512x32 x1 shapeCasts_S512x32_S512x32 (ix2 k h) = _
  rw [shapeCast_1ab_ab_apply, shapeCast_self]

/-! ## From the loaded blocks to the array -/

/-- The body's rectangles start at the origin of their staging buffers. -/
theorem origin3 : (![0, 0, 0] : Fin 3 → Nat) = fun _ => 0 := funext fun a => by fin_cases a <;> rfl
theorem origin2 : (![0, 0] : Fin 2 → Nat) = fun _ => 0 := funext fun a => by fin_cases a <;> rfl

/-- What the body stores is one batch of the transposed projection, for ANY arrays the two loaded blocks are read off:
    `x0` holding batch `b` of `A` and `x1` holding all of `W`. -/
theorem pay_eq_projT (x0 : Vec Ideal S1x1024x512 .f32) (x1 : Vec Ideal S512x32 .f32)
    (A : Cert.Score.SAct.Idx → EReal) (W : Cert.Score.SHalf.Idx → EReal) (b : Fin 2)
    (h0 : ∀ (n : Fin 1024) (d : Fin 512), x0 (ix3 (0 : Fin 1) n d) = A (ix3 b n d))
    (h1 : ∀ (d : Fin 512) (h : Fin 32), x1 (ix2 d h) = W (ix2 d h)) (j : S1x32x1024.Idx) :
    k0_pay1 (F := Ideal) x0 x1 j = Cert.Score.projT A W (ix3 b (j 1) (j 2)) := by
  obtain ⟨u, h, n, rfl⟩ : ∃ (u : Fin 1) (h : Fin 32) (n : Fin 1024), j = ix3 u h n := ⟨j 0, j 1, j 2, eq_ix3 j⟩
  rw [pay_apply, Cert.Score.projT_apply]
  unfold Cert.Score.proj
  exact Finset.sum_congr rfl fun d _ => by rw [h0, h1]

/-- The index maps over the two grid points: the activations' and the output's block index is the point on the batch
    axis and zero elsewhere; the weight's is zero. -/
theorem blockIndex : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

variable (V : (c : Dev nD) → (b : Ref sig .tc) → Buf (Elt Ideal) ((c : Thread nD τ).loc b))

/-- What grid point `t` writes back is block `t` — batch `t` — of the transposed projection of the arrays the region
    finds in its two input buffers. -/
theorem flushed_eq (c : Dev nD) (t : Fin cfg0.N) :
    (dat0 V c).flushed 2 t
      = ((cfg0.win 2).blk t).view.read (Elt Ideal) (Cert.Score.projT (V c main_arg0) (V c main_v0)) := by
  show (cfg0.win 2).cut (grid0.coords t) ((dat0 V c).after 2 t) = _
  rw [after0_2]
  unfold out0_2
  rw [View.canon_unit_zero origin3]
  simp only [View.ld_unit_zero (S := S1x1024x512) origin3, View.ld_unit_zero (S := S512x32) origin2]
  obtain ⟨e00, e01, e02, e10, e11, e20, e21, e22⟩ := blockIndex t
  have ht : t.val < 2 := by have h := t.isLt; have hN : cfg0.N = 2 := N_0; omega
  funext j
  refine (pay_eq_projT (iblk0 V c 0 t) (iblk0 V c 1 t) (V c main_arg0) (V c main_v0) ⟨t.val, ht⟩ ?_ ?_ j).trans ?_
  · intro n d
    show V c main_arg0 (((cfg0.win 0).blk t).view.emb (ix3 (0 : Fin 1) n d)) = V c main_arg0 (ix3 ⟨t.val, ht⟩ n d)
    refine congrArg _ (funext fun a => Fin.ext ?_)
    match a with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 512 + 1 * d.val = d.val; omega
  · intro d h
    show V c main_v0 (((cfg0.win 1).blk t).view.emb (ix2 d h)) = V c main_v0 (ix2 d h)
    refine congrArg _ (funext fun a => Fin.ext ?_)
    match a with
    | ⟨0, _⟩ => show win0_1.index t (0 : Fin 2) * 512 + 1 * d.val = d.val; omega
    | ⟨1, _⟩ => show win0_1.index t (1 : Fin 2) * 32 + 1 * h.val = h.val; omega
  · show Cert.Score.projT (V c main_arg0) (V c main_v0) (ix3 ⟨t.val, ht⟩ (j 1) (j 2))
      = Cert.Score.projT (V c main_arg0) (V c main_v0) (((cfg0.win 2).blk t).view.emb j)
    refine congrArg _ (funext fun a => Fin.ext ?_)
    have hj0 : (j 0).val < 1 := (j 0).isLt
    match a with
    | ⟨0, _⟩ => show t.val = win0_2.index t (0 : Fin 3) * 1 + 1 * (j 0).val; omega
    | ⟨1, _⟩ => show (j 1).val = win0_2.index t (1 : Fin 3) * 32 + 1 * (j 1).val; omega
    | ⟨2, _⟩ => show (j 2).val = win0_2.index t (2 : Fin 3) * 1024 + 1 * (j 2).val; omega

/-- An index of the output array is in point `t`'s block iff each coordinate is in the block's range on its axis. -/
theorem mem_blk (t : Fin cfg0.N) (i : S2x32x1024.Idx) :
    i ∈ ((cfg0.win 2).blk t).view.set ↔ ∀ a : Fin 3, win0_2.index t a * S1x32x1024.size a ≤ (i a).val
      ∧ (i a).val < win0_2.index t a * S1x32x1024.size a + S1x32x1024.size a := by
  show i ∈ ((View.whole main_v2).slice (win0_2.rect t)).set ↔ _
  rw [View.set_slice_whole, Rect.mem_set_unit]
  exact Iff.rfl

/-- Region 0's output array after the region, whatever contents V the region was entered with. -/
theorem keyArray (c : Dev nD) :
    (dat0 V c).arrAt 2 cfg0.N = Cert.Score.projT (V c main_arg0) (V c main_v0) :=
  (dat0 V c).arrAt_eq_of_cover 2 (Cert.Score.projT (V c main_arg0) (V c main_v0)) (fun t _ => flushed_eq V c t) fun i => by
    have hi0 : (i 0).val < 2 := (i 0).isLt
    have hi1 : (i 1).val < 32 := (i 1).isLt
    have hi2 : (i 2).val < 1024 := (i 2).isLt
    have hN : cfg0.N = 2 := N_0
    obtain ⟨t, ht⟩ : ∃ t : Fin cfg0.N, t.val = (i 0).val := ⟨⟨(i 0).val, by omega⟩, rfl⟩
    refine ⟨t, flush0_2 t, ?_⟩
    obtain ⟨-, -, -, -, -, e20, e21, e22⟩ := blockIndex t
    rw [mem_blk]
    intro a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 32 ≤ (i 1).val ∧ (i 1).val < win0_2.index t (1 : Fin 3) * 32 + 32
      omega
    | ⟨2, _⟩ =>
      show win0_2.index t (2 : Fin 3) * 1024 ≤ (i 2).val ∧ (i 2).val < win0_2.index t (2 : Fin 3) * 1024 + 1024
      omega

/-! ## What region 2 finds -/

variable (m : (ℓ : Loc nD τ sig) → Buf (Elt Ideal) ℓ) (ρ : Dev nD → PrngReg)

/-- The first host stretch writes neither argument: region 0 is entered with the launch's keys. -/
theorem entry0_keys (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first host stretch leaves in `main_v0` rows 0..511 of the launch's first-layer weight. -/
theorem entry0_weight (c : Dev nD) :
    V1 m ρ c main_v0 = Cert.Score.loHalf (m ((c : Thread nD τ).loc main_arg2)) := by
  have e : (V1 m ρ c main_v0 : S512x32.Idx → Elt Ideal .f32)
      = extractStridedSlice S512x32 ![0, 0] (m ((c : Thread nD τ).loc main_arg2)) slices_S1024x32_S512x32_0_0 := by
    show StableHlo.after hostOps0 _ (Proc.devRef .tc main_v0) = _
    after_results
  rw [e]
  funext i
  obtain ⟨d, h, rfl⟩ : ∃ (d : Fin 512) (h : Fin 32), i = ix2 d h := ⟨i 0, i 1, eq_ix2 i⟩
  unfold Cert.Score.loHalf
  exact extractStridedSlice_apply ![0, 0] _ slices_S1024x32_S512x32_0_0 (ix2 d h) (ix2 (Cert.Score.loRow d) h) (fun a => match a with
    | ⟨0, _⟩ => by show d.val = 0 + d.val; omega
    | ⟨1, _⟩ => by show h.val = 0 + h.val; omega)

/-- What region 2 finds in main_v2: the keys' hidden array of the launch memory's arguments. -/
theorem entry2_keyHidden (c : Dev nD) :
    V5 m ρ c main_v2 = Cert.Score.keyHidden (m ((c : Thread nD τ).loc main_arg0)) (m ((c : Thread nD τ).loc main_arg2)) :=
  calc W5 m ρ c (Proc.devRef .tc main_v2)
    _ = W4 m ρ c (Proc.devRef .tc main_v2) := StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2
    _ = Cert.Score.projT (V1 m ρ c main_arg0) (V1 m ρ c main_v0) := keyArray (V1 m ρ) c
    _ = Cert.Score.keyHidden (m ((c : Thread nD τ).loc main_arg0)) (m ((c : Thread nD τ).loc main_arg2)) := by
          rw [entry0_keys m ρ c, entry0_weight m ρ c]; rfl

end Cert.KernelIdeal.KeyStage
end
-- ==== Proof.QueryStage.lean ====
/-
  The queries' stage of the additive-attention score, and the two small arrays the last stage reads.

  The second stage takes, per batch b, the block queries[b, :, :] : [1024, 512], a [512, 32] weight and a [1, 32]
  bias row, and stores

      out[b, q, h] = Σ_d queries[b, q, d] · weight[d, h] + row[0, h].

  At the extended reals the narrowing of the two factors before the product is the identity and the product into a
  zero accumulator is the plain sum over the 512 positions, so each stored entry is one entry of the projection with
  the bias added. The two grid points write the two batches, which together are the whole output array.

  Between the stages the host only re-lays arrays out: the weight is rows 512..1023 of the first-layer weight, the
  bias row is the hidden bias as a [1, 32] matrix, the second-layer weight (a column) is transposed to a row and the
  output bias becomes a [1, 1] cell. Each is read entry by entry; a buffer that no operation in between writes is
  followed back, boundary by boundary, to the contents the program was launched with.
-/
import proofs.«143010_j6597069767500_2_alg».proof.Proof.Gen.KernelIdeal.Frame
import proofs.«143010_j6597069767500_2_alg».proof.Proof.ScoreSpec
import Idealize.ShloMosaic.Lib.ValueLayout
import Idealize.ShloMosaic.Lib.ValueIdx
import Idealize.ShloMosaic.Lib.Pipeline.Value
import Idealize.ShloMosaic.PureOps.Ideal.Laws
import Idealize.ShloMosaic.Lib.StableHlo.Run

noncomputable section

namespace Cert.KernelIdeal.QueryStage

open Idealize.ShloMosaic Idealize.ShloMosaic.TcCoe Idealize.SL.Sem Cert.KernelIdeal Cert.KernelIdeal.Gen
open Idealize.ShloMosaic.ValueIdx

/-- A buffer that none of a stretch of host operations writes holds after the stretch what it held before. -/
local macro "host_untouched" : tactic => `(tactic|
  (refine StableHlo.after_of_forall_not_mem _ _ (List.forall_iff_forall_mem.mp ?_)
   simp only [hostOps0, hostOps1, hostOps2, List.Forall, StableHlo.unary_writes, StableHlo.reshape_writes,
     Finset.mem_singleton]
   repeat' apply And.intro
   all_goals exact StableHlo.devRef_ne_of_ne (by decide)))

section Payload

/-- The dimension numbers of the block's matrix product: [1024, 512] times [512, 32], contracting the 512 positions. -/
abbrev qdot := dot_S1024x512_S512x32_S1024x32_1_0_0_1_n_n

/-- The left factor's row is the output's row. -/
theorem lhs_row (j : S1024x32.Idx) (q : qdot.contr.Idx) : (qdot.lhsIdx j q 0).val = (j 0).val := by
  unfold DotDims.lhsIdx
  rw [dif_neg (show ¬(0 : Fin S1024x512.rank) ∈ qdot.lhsBatch by decide),
    dif_pos (show (0 : Fin S1024x512.rank) ∈ qdot.lhsNonContracting by decide)]
  rfl

/-- The right factor's column is the output's column. -/
theorem rhs_col (j : S1024x32.Idx) (q : qdot.contr.Idx) : (qdot.rhsIdx j q 1).val = (j 1).val := by
  unfold DotDims.rhsIdx
  rw [dif_neg (show ¬(1 : Fin S512x32.rank) ∈ qdot.rhsBatch by decide),
    dif_pos (show (1 : Fin S512x32.rank) ∈ qdot.rhsNonContracting by decide)]
  rfl

/-- The block's matrix product into a zero accumulator, at row `n` and column `h`: the sum over the 512 positions of
    the row's entry times the column's entry (no rounding is left at the extended reals). -/
theorem matmul_at (A : FVec Ideal S1024x512 .bf16) (B : FVec Ideal S512x32 .bf16) (n : Fin 1024) (h : Fin 32) :
    matmul qdot none A B (constant S1024x32 .f32 0x00000000#32) (ix2 n h)
      = ∑ d : Fin 512, A (ix2 n d) * B (ix2 d h) := by
  simp only [matmul]
  rw [Ideal.matmul_constant_zero_apply, ← Equiv.sum_comp (contrEquiv1 qdot 512 rfl rfl).symm]
  refine Finset.sum_congr rfl fun d _ => ?_
  have hd := contrEquiv1_symm_val qdot 512 rfl rfl d
  have el : qdot.lhsIdx (ix2 n h) ((contrEquiv1 qdot 512 rfl rfl).symm d) = ix2 n d := funext fun a => Fin.ext (by
    match a with
    | ⟨0, _⟩ => exact lhs_row _ _
    | ⟨1, _⟩ => exact (qdot.lhsIdx_val_of_single rfl _ _).trans hd)
  have er : qdot.rhsIdx (ix2 n h) ((contrEquiv1 qdot 512 rfl rfl).symm d) = ix2 d h := funext fun a => Fin.ext (by
    match a with
    | ⟨0, _⟩ => exact (qdot.rhsIdx_val_of_single rfl _ _).trans hd
    | ⟨1, _⟩ => exact rhs_col _ _)
  rw [el, er]

/-- What the body stores, entry by entry: row `n` of the queries' block against column `h` of the weight, plus entry
    `h` of the bias row. -/
theorem pay_at (x0 : Vec Ideal S1x1024x512 .f32) (x1 : Vec Ideal S512x32 .f32) (x2 : Vec Ideal S1x32 .f32)
    (u : Fin 1) (n : Fin 1024) (h : Fin 32) :
    k1_pay1 x0 x1 x2 (ix3 u n h)
      = (∑ d : Fin 512, x0 (ix3 (0 : Fin 1) n d) * x1 (ix2 d h)) + x2 (ix2 (0 : Fin 1) h) := by
  unfold k1_pay1
  refine (shapeCast_ab_1ab_apply _ _ u n h).trans ?_
  rw [addf_apply, matmul_at, broadcastTo_1b_ab_apply, shapeCast_self, shapeCast_self]
  refine congrArg (· + x2 (ix2 (0 : Fin 1) h)) (Finset.sum_congr rfl fun d _ => ?_)
  rw [truncf_apply, truncf_apply, shapeCast_1ab_ab_apply]

end Payload

section Region

variable (V : (c : Dev nD) → (b : Ref sig .tc) → Buf (Elt Ideal) ((c : Thread nD τ).loc b)) (c : Dev nD)

/-- Every load and the store of the body take their whole buffer: the offsets are zero. -/
theorem off3 : (![0, 0, 0] : Fin 3 → Nat) = fun _ => 0 := funext fun a => by fin_cases a <;> rfl
theorem off2 : (![0, 0] : Fin 2 → Nat) = fun _ => 0 := funext fun a => by fin_cases a <;> rfl

/-- Where the blocks sit, decided over the two grid points: the queries' block and the output's block are batch `t`
    (whole in the other two axes); the weight and the bias row are fetched whole at every point. -/
theorem block_places : ∀ t : Fin cfg1.N,
    win1_3.index t (0 : Fin 3) = t.val ∧ win1_3.index t (1 : Fin 3) = 0 ∧ win1_3.index t (2 : Fin 3) = 0
    ∧ win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The batch a grid point works on. -/
def batchOf (t : Fin cfg1.N) : Fin 2 := ⟨t.val, Nat.lt_of_lt_of_eq t.isLt N_1⟩

/-- Entry (u, n, h) of the output's block at point `t` is entry (t, n, h) of the output array. -/
theorem out_emb (t : Fin cfg1.N) (u : Fin 1) (n : Fin 1024) (h : Fin 32) :
    ((cfg1.win 3).blk t).view.emb (ix3 u n h) = ix3 (batchOf t) n h := by
  obtain ⟨e0, e1, e2, -⟩ := block_places t
  funext a; apply Fin.ext
  match a with
  | ⟨0, _⟩ => show win1_3.index t (0 : Fin 3) * 1 + 1 * u.val = t.val; omega
  | ⟨1, _⟩ => show win1_3.index t (1 : Fin 3) * 1024 + 1 * n.val = n.val; omega
  | ⟨2, _⟩ => show win1_3.index t (2 : Fin 3) * 32 + 1 * h.val = h.val; omega

/-- Entry (u, n, d) of the queries' block at point `t` is entry (t, n, d) of the queries. -/
theorem qry_emb (t : Fin cfg1.N) (u : Fin 1) (n : Fin 1024) (d : Fin 512) :
    ((cfg1.win 0).blk t).view.emb (ix3 u n d) = ix3 (batchOf t) n d := by
  obtain ⟨-, -, -, e0, e1, e2, -⟩ := block_places t
  funext a; apply Fin.ext
  match a with
  | ⟨0, _⟩ => show win1_0.index t (0 : Fin 3) * 1 + 1 * u.val = t.val; omega
  | ⟨1, _⟩ => show win1_0.index t (1 : Fin 3) * 1024 + 1 * n.val = n.val; omega
  | ⟨2, _⟩ => show win1_0.index t (2 : Fin 3) * 512 + 1 * d.val = d.val; omega

/-- The weight's block is the whole weight. -/
theorem wt_emb (t : Fin cfg1.N) (d : Fin 512) (h : Fin 32) :
    ((cfg1.win 1).blk t).view.emb (ix2 d h) = ix2 d h := by
  obtain ⟨-, -, -, -, -, -, e0, e1, -⟩ := block_places t
  funext a; apply Fin.ext
  match a with
  | ⟨0, _⟩ => show win1_1.index t (0 : Fin 2) * 512 + 1 * d.val = d.val; omega
  | ⟨1, _⟩ => show win1_1.index t (1 : Fin 2) * 32 + 1 * h.val = h.val; omega

/-- The bias row's block is the whole row. -/
theorem row_emb (t : Fin cfg1.N) (u : Fin 1) (h : Fin 32) :
    ((cfg1.win 2).blk t).view.emb (ix2 u h) = ix2 (0 : Fin 1) h := by
  obtain ⟨-, -, -, -, -, -, -, -, e0, e1⟩ := block_places t
  funext a; apply Fin.ext
  match a with
  | ⟨0, _⟩ => show win1_2.index t (0 : Fin 2) * 1 + 1 * u.val = 0; omega
  | ⟨1, _⟩ => show win1_2.index t (1 : Fin 2) * 32 + 1 * h.val = h.val; omega

/-- What grid point `t` writes back is batch `t` of the projection-with-bias of the arrays the region was entered with. -/
theorem flushed_eq (t : Fin cfg1.N) :
    (dat1 V c).flushed 3 t
      = ((cfg1.win 3).blk t).view.read (Elt Ideal) (Cert.Score.projB (V c main_arg1) (V c main_v1) (V c main_v3)) := by
  show (cfg1.win 3).cut (grid1.coords t) ((dat1 V c).after 3 t) = _
  rw [after1_3]
  unfold out1_3
  rw [View.canon_unit_zero off3]
  simp only [View.ld_unit_zero (S := S1x1024x512) off3, View.ld_unit_zero (S := S512x32) off2,
    View.ld_unit_zero (S := S1x32) off2]
  funext j
  obtain ⟨u, n, h, rfl⟩ : ∃ (u : Fin 1) (n : Fin 1024) (h : Fin 32), j = ix3 u n h := ⟨j 0, j 1, j 2, eq_ix3 j⟩
  show k1_pay1 (iblk1 V c 0 t) (iblk1 V c 1 t) (iblk1 V c 2 t) (ix3 u n h)
    = Cert.Score.projB (V c main_arg1) (V c main_v1) (V c main_v3) (((cfg1.win 3).blk t).view.emb (ix3 u n h))
  rw [out_emb, Cert.Score.projB_apply]
  refine (pay_at (iblk1 V c 0 t) (iblk1 V c 1 t) (iblk1 V c 2 t) u n h).trans ?_
  have hq : ∀ d : Fin 512, iblk1 V c 0 t (ix3 (0 : Fin 1) n d) = V c main_arg1 (ix3 (batchOf t) n d) := fun d => by
    show V c main_arg1 (((cfg1.win 0).blk t).view.emb (ix3 (0 : Fin 1) n d)) = _
    rw [qry_emb]
  have hw : ∀ d : Fin 512, iblk1 V c 1 t (ix2 d h) = V c main_v1 (ix2 d h) := fun d => by
    show V c main_v1 (((cfg1.win 1).blk t).view.emb (ix2 d h)) = _
    rw [wt_emb]
  have hr : iblk1 V c 2 t (ix2 (0 : Fin 1) h) = V c main_v3 (ix2 (0 : Fin 1) h) := by
    show V c main_v3 (((cfg1.win 2).blk t).view.emb (ix2 (0 : Fin 1) h)) = _
    rw [row_emb]
  rw [hr]
  refine congrArg (· + V c main_v3 (ix2 (0 : Fin 1) h)) (Finset.sum_congr rfl fun d _ => ?_)
  rw [hq d, hw d]

/-- An index of the output array lies in point `t`'s block iff each coordinate lies in the block's range. -/
theorem mem_blk (t : Fin cfg1.N) (i : S2x1024x32.Idx) :
    i ∈ ((cfg1.win 3).blk t).view.set ↔ ∀ a : Fin 3, win1_3.index t a * S1x1024x32.size a ≤ (i a).val
      ∧ (i a).val < win1_3.index t a * S1x1024x32.size a + S1x1024x32.size a := by
  show i ∈ ((View.whole main_v4).slice (win1_3.rect t)).set ↔ _
  rw [View.set_slice_whole, Rect.mem_set_unit]
  exact Iff.rfl

/-- Every index of the output array is written back by the point of its batch. -/
theorem covered (i : S2x1024x32.Idx) :
    ∃ t : Fin cfg1.N, (cfg1.win 3).flush t = true ∧ i ∈ ((cfg1.win 3).blk t).view.set := by
  have hi0 : (i 0).val < 2 := (i 0).isLt
  have hi1 : (i 1).val < 1024 := (i 1).isLt
  have hi2 : (i 2).val < 32 := (i 2).isLt
  obtain ⟨t, ht⟩ : ∃ t : Fin cfg1.N, t.val = (i 0).val := ⟨⟨(i 0).val, Nat.lt_of_lt_of_eq hi0 N_1.symm⟩, rfl⟩
  obtain ⟨e0, e1, e2, -⟩ := block_places t
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 32 ≤ (i 2).val ∧ (i 2).val < win1_3.index t (2 : Fin 3) * 32 + 32
    omega

/-- Region 1's output array after the region, whatever contents V the region was entered with. -/
theorem queryArray :
    (dat1 V c).arrAt 3 cfg1.N = Cert.Score.projB (V c main_arg1) (V c main_v1) (V c main_v3) :=
  (dat1 V c).arrAt_eq_of_cover 3 (Cert.Score.projB (V c main_arg1) (V c main_v1) (V c main_v3))
    (fun t _ => flushed_eq V c t) covered

end Region

section Host

variable (m : (ℓ : Loc nD τ sig) → Buf (Elt Ideal) ℓ) (ρ : Dev nD → PrngReg) (c : Dev nD)

/-- The second-layer weight reaches the last host stretch as launched. -/
theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_untouched
    _ = W1 m ρ c (Proc.devRef .tc main_arg4) := W2_of_ne m ρ c main_arg4 (by decide)
    _ = W0 m ρ c (Proc.devRef .tc main_arg4) := by host_untouched
    _ = m ((c : Thread nD τ).loc main_arg4) := rfl

/-- The output bias reaches the last host stretch as launched. -/
theorem W4_main_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_untouched
    _ = W1 m ρ c (Proc.devRef .tc main_arg5) := W2_of_ne m ρ c main_arg5 (by decide)
    _ = W0 m ρ c (Proc.devRef .tc main_arg5) := by host_untouched
    _ = m ((c : Thread nD τ).loc main_arg5) := rfl

/-- The last stage's weight row is the second-layer weight, a column, transposed. -/
theorem entry2_weightRow :
    V5 m ρ c main_v5 = Cert.Score.weightRow (m ((c : Thread nD τ).loc main_arg4)) := by
  show StableHlo.after hostOps2 (W4 m ρ c) (Proc.devRef .tc main_v5) = _
  after_results
  rw [W4_main_arg4]
  funext i
  obtain ⟨u, h, rfl⟩ : ∃ (u : Fin 1) (h : Fin 32), i = ix2 u h := ⟨i 0, i 1, eq_ix2 i⟩
  exact transpose_ix2_apply _ _ u h

/-- The last stage's bias cell is the output bias as a one-cell matrix. -/
theorem entry2_biasCell :
    V5 m ρ c main_v6 = Cert.Score.biasCell (m ((c : Thread nD τ).loc main_arg5)) := by
  show StableHlo.after hostOps2 (W4 m ρ c) (Proc.devRef .tc main_v6) = _
  after_results
  rw [W4_main_arg5]
  funext i
  obtain ⟨u, v, rfl⟩ : ∃ (u : Fin 1) (v : Fin 1), i = ix2 u v := ⟨i 0, i 1, eq_ix2 i⟩
  exact (shapeCast_a_1a_apply _ _ u v).trans (congrArg _ (congrArg ix1 (Subsingleton.elim v 0)))

end Host

section Entry

variable (m : (ℓ : Loc nD τ sig) → Buf (Elt Ideal) ℓ) (ρ : Dev nD → PrngReg) (c : Dev nD)

/-- The queries reach region 1 as launched: nothing before it writes them. -/
theorem V3_main_arg1 : V3 m ρ c main_arg1 = m ((c : Thread nD τ).loc main_arg1) :=
  calc W3 m ρ c (Proc.devRef .tc main_arg1)
    _ = W2 m ρ c (Proc.devRef .tc main_arg1) := by host_untouched
    _ = W1 m ρ c (Proc.devRef .tc main_arg1) := W2_of_ne m ρ c main_arg1 (by decide)
    _ = W0 m ρ c (Proc.devRef .tc main_arg1) := by host_untouched
    _ = m ((c : Thread nD τ).loc main_arg1) := rfl

/-- The weight region 1 multiplies by is rows 512..1023 of the first-layer weight: the host cut them out before
    region 0, and nothing since wrote that buffer. -/
theorem V3_main_v1 : V3 m ρ c main_v1 = Cert.Score.hiHalf (m ((c : Thread nD τ).loc main_arg2)) :=
  calc W3 m ρ c (Proc.devRef .tc main_v1)
    _ = W2 m ρ c (Proc.devRef .tc main_v1) := by host_untouched
    _ = W1 m ρ c (Proc.devRef .tc main_v1) := W2_of_ne m ρ c main_v1 (by decide)
    _ = extractStridedSlice S512x32 ![512, 0] (m ((c : Thread nD τ).loc main_arg2)) slices_S1024x32_S512x32_512_0 := by
          show StableHlo.after hostOps0 (W0 m ρ c) (Proc.devRef .tc main_v1) = _
          after_results
    _ = Cert.Score.hiHalf (m ((c : Thread nD τ).loc main_arg2)) := by
          funext i
          obtain ⟨d, h, rfl⟩ : ∃ (d : Fin 512) (h : Fin 32), i = ix2 d h := ⟨i 0, i 1, eq_ix2 i⟩
          exact slice2_axis0_eq 512 _ _ d h

/-- The hidden bias reaches the reshape as launched. -/
theorem W2_main_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_untouched
    _ = m ((c : Thread nD τ).loc main_arg3) := rfl

/-- The bias row region 1 adds is the hidden bias laid out as one row: the host reshaped it just before the region. -/
theorem V3_main_v3 : V3 m ρ c main_v3 = Cert.Score.biasRow (m ((c : Thread nD τ).loc main_arg3)) := by
  show StableHlo.after hostOps1 (W2 m ρ c) (Proc.devRef .tc main_v3) = _
  after_results
  rw [W2_main_arg3]
  funext i
  obtain ⟨u, h, rfl⟩ : ∃ (u : Fin 1) (h : Fin 32), i = ix2 u h := ⟨i 0, i 1, eq_ix2 i⟩
  exact shapeCast_a_1a_apply _ _ u h

/-- What region 2 finds in main_v4, main_v5, main_v6, from the launch memory's arguments. -/
theorem entry2_queryHidden :
    V5 m ρ c main_v4 = Cert.Score.queryHidden (m ((c : Thread nD τ).loc main_arg1))
      (m ((c : Thread nD τ).loc main_arg2)) (m ((c : Thread nD τ).loc main_arg3)) :=
  calc W5 m ρ c (Proc.devRef .tc main_v4)
    _ = W4 m ρ c (Proc.devRef .tc main_v4) := by host_untouched
    _ = (dat1 (V3 m ρ) c).arrAt 3 cfg1.N := W4_arr m ρ c 3
    _ = Cert.Score.projB (V3 m ρ c main_arg1) (V3 m ρ c main_v1) (V3 m ρ c main_v3) := queryArray (V3 m ρ) c
    _ = Cert.Score.projB (m ((c : Thread nD τ).loc main_arg1)) (Cert.Score.hiHalf (m ((c : Thread nD τ).loc main_arg2)))
          (Cert.Score.biasRow (m ((c : Thread nD τ).loc main_arg3))) := by
          rw [V3_main_arg1, V3_main_v1, V3_main_v3]
    _ = Cert.Score.queryHidden (m ((c : Thread nD τ).loc main_arg1)) (m ((c : Thread nD τ).loc main_arg2))
          (m ((c : Thread nD τ).loc main_arg3)) := rfl

end Entry

end Cert.KernelIdeal.QueryStage

end
-- ==== Proof.ScorePayload.lean ====
/-
  One trip of the scoring stage's inner loop, read entry by entry.

  A trip takes the 128 query rows of the block (hidden values, [1, 128, 32]), a slab of 256 key columns of the keys'
  hidden array ([1, 32, 256]), the second-layer weight as a row ([1, 32]) and the output bias as a cell ([1, 1]), and
  stores, for query row r and key column j of the slab,

      Σ_h tanh (query[0, r, h] + key[0, h, j]) · weight[0, h]  +  bias[0, 0].

  The body spells this with broadcasts of the two operands to [128, 32, 256], a sum along the middle axis, and unit axes
  added and dropped around it; every one of those reads, at an index, one entry of its operand.
-/
import proofs.«143010_j6597069767500_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ScoreStage

open Idealize.ShloMosaic Idealize.ShloMosaic.ValueIdx Cert.KernelIdeal Cert.KernelIdeal.Gen

/-- The score of query row `r` against key column `j` of a slab, from the trip's four operands. -/
def tripScore (qry : Vec Ideal S1x128x32 .f32) (wrow : Vec Ideal S1x32 .f32) (cell : Vec Ideal S1x1 .f32)
    (keySlab : Vec Ideal S1x32x256 .f32) (r : Fin 128) (j : Fin 256) : EReal :=
  (∑ h : Fin 32, Ideal.tanh (qry (ix3 0 r h) + keySlab (ix3 0 h j)) * wrow (ix2 0 h)) + cell (ix2 0 0)

/-! ## The layout steps, each read at coordinates -/

/-- The index over `(r, j)` of the summed array with `h` put back on the middle axis. -/
theorem lift_mid (hred : S128x32x256.Reduces [1] S128x256) (r : Fin 128) (j : Fin 256) (h : Fin 32) :
    hred.lift (ix2 r j) h = ix3 r h j :=
  funext fun a => Fin.ext (by
    show hred.liftVal (ix2 r j) h.val a = (ix3 r h j a).val
    unfold Shape.Reduces.liftVal
    match a with
    | ⟨0, _⟩ => rfl
    | ⟨1, _⟩ => rfl
    | ⟨2, _⟩ => rfl)

/-- A [128, 32] matrix given a trailing unit axis and repeated along it 256 times reads `(r, h)` at `(r, h, j)`. -/
theorem spread_last {α : Type} (x : S128x32.Idx → α) (hc : S128x32.ShapeCasts S128x32x1) (hb : S128x32x1.Broadcasts S128x32x256)
    (r : Fin 128) (h : Fin 32) (j : Fin 256) :
    broadcastTo S128x32x256 (shapeCast S128x32x1 x hc) hb (ix3 r h j) = x (ix2 r h) := by
  refine (broadcastTo_apply _ hb (ix3 r h j) (ix3 r h (0 : Fin 1)) fun a => ?_).trans ?_
  · match a with
    | ⟨0, _⟩ => rfl
    | ⟨1, _⟩ => rfl
    | ⟨2, _⟩ => rfl
  · exact shapeCast_apply x hc _ _ (by
      rw [Shape.rowMajor_val_two, Shape.rowMajor_val_three]
      show r.val * 32 + h.val = (r.val * 32 + h.val) * 1 + 0
      omega)

/-- A [32, 256] matrix given a leading unit axis and repeated along it 128 times reads `(h, j)` at `(r, h, j)`. -/
theorem spread_first {α : Type} (x : S32x256.Idx → α) (hc : S32x256.ShapeCasts S1x32x256) (hb : S1x32x256.Broadcasts S128x32x256)
    (r : Fin 128) (h : Fin 32) (j : Fin 256) :
    broadcastTo S128x32x256 (shapeCast S1x32x256 x hc) hb (ix3 r h j) = x (ix2 h j) := by
  refine (broadcastTo_apply _ hb (ix3 r h j) (ix3 (0 : Fin 1) h j) fun a => ?_).trans ?_
  · match a with
    | ⟨0, _⟩ => rfl
    | ⟨1, _⟩ => rfl
    | ⟨2, _⟩ => rfl
  · exact shapeCast_ab_1ab_apply x hc 0 h j

/-- A vector of 32 given unit axes on both sides and repeated to [128, 32, 256] reads `h` at `(r, h, j)`. -/
theorem spread_mid {α : Type} (x : S32.Idx → α) (hc : S32.ShapeCasts S1x32x1) (hb : S1x32x1.Broadcasts S128x32x256)
    (r : Fin 128) (h : Fin 32) (j : Fin 256) :
    broadcastTo S128x32x256 (shapeCast S1x32x1 x hc) hb (ix3 r h j) = x (ix1 h) := by
  refine (broadcastTo_apply _ hb (ix3 r h j) (ix3 (0 : Fin 1) h (0 : Fin 1)) fun a => ?_).trans ?_
  · match a with
    | ⟨0, _⟩ => rfl
    | ⟨1, _⟩ => rfl
    | ⟨2, _⟩ => rfl
  · exact shapeCast_apply x hc _ _ (by
      rw [Shape.rowMajor_val_one, Shape.rowMajor_val_three]
      show h.val = (0 * 32 + h.val) * 1 + 0
      omega)

/-! ## The trip's stored value at an index -/

theorem pay_apply (qry : Vec Ideal S1x128x32 .f32) (wrow : Vec Ideal S1x32 .f32) (cell : Vec Ideal S1x1 .f32)
    (keySlab : Vec Ideal S1x32x256 .f32) (u : Fin 1) (r : Fin 128) (j : Fin 256) :
    k2_pay1 qry wrow cell keySlab (ix3 u r j) = tripScore qry wrow cell keySlab r j := by
  unfold k2_pay1 tripScore
  refine (shapeCast_ab_1ab_apply _ _ u r j).trans ?_
  refine congrArg₂ (· + ·) ?_ ?_
  · refine (Ideal.multiReduction_add_single _ _ _ _ _ (ix2 r j)).trans ?_
    show ∑ h : Fin 32, _ = _
    refine Finset.sum_congr rfl fun h _ => ?_
    rw [lift_mid]
    show Ideal.tanh (_ + _) * _ = _
    refine congrArg₂ (· * ·) (congrArg Ideal.tanh (congrArg₂ (· + ·) ?_ ?_)) ?_
    · exact (spread_last _ _ _ r h j).trans (shapeCast_1ab_ab_apply qry _ r h)
    · exact (spread_first _ _ _ r h j).trans (shapeCast_1ab_ab_apply keySlab _ h j)
    · exact (spread_mid _ _ _ r h j).trans (shapeCast_1a_a_apply wrow _ h)
  · show cell _ = cell _
    exact congrArg cell (funext fun a => Fin.ext (by match a with | ⟨0, _⟩ => rfl | ⟨1, _⟩ => rfl))

end Cert.KernelIdeal.ScoreStage

end
-- ==== Proof.ScorePieces.lean ====
/-
  What the scoring stage's body leaves in its output block, as one function of the block's four operands.

  The body loops over four slabs of 256 key columns; trip k stores, into columns [256 k, 256 k + 256) of the
  [1, 128, 1024] output block, the trip's scores of the 128 query rows against that slab of the keys' hidden block. A
  slab's column j is column 256 k + j of the whole block on both sides — the load's and the store's offsets along the
  key axis are one and the same number — so every stored piece is a restriction of ONE function of the output block's
  index,

      blockScore [0, r, k] = Σ_h tanh (query[0, r, h] + key[0, h, k]) · weight[0, h]  +  bias[0, 0],

  and since the four pieces tile the block, the block ends holding that function.
-/
import proofs.«143010_j6597069767500_2_alg».proof.Proof.Gen.KernelIdeal.Frame
import proofs.«143010_j6597069767500_2_alg».proof.Proof.ScorePayload

set_option maxRecDepth 16384

noncomputable section

namespace Cert.KernelIdeal.ScoreStage

open Idealize.ShloMosaic Idealize.ShloMosaic.TcCoe Idealize.ShloMosaic.ValueIdx Idealize.SL.Sem
open Cert.KernelIdeal Cert.KernelIdeal.Gen

/-- The score of query row `y 1` against key column `y 2` of a block, from the block's four operands. -/
def blockScore (keyBlk : Vec Ideal S1x32x1024 .f32) (qry : Vec Ideal S1x128x32 .f32) (wrow : Vec Ideal S1x32 .f32)
    (cell : Vec Ideal S1x1 .f32) : S1x128x1024.Idx → EReal :=
  fun y => (∑ h : Fin 32, Ideal.tanh (qry (ix3 0 (y 1) h) + keyBlk (ix3 0 h (y 2))) * wrow (ix2 0 h)) + cell (ix2 0 0)

/-- Trip `k`'s stored value, at a slab index, is the block's function at the place the store puts it: row for row, and
    the slab's column at the same offset along the key axis in the load and in the store. -/
theorem piece_eq (keyBlk : Vec Ideal S1x32x1024 .f32) (qry : Vec Ideal S1x128x32 .f32) (wrow : Vec Ideal S1x32 .f32)
    (cell : Vec Ideal S1x1 .f32) (k : Fin k2_t1_loop.trips) (x : S1x128x256.Idx) :
    k2_pay1 qry wrow cell (View.ld keyBlk (Rect.unit (s := S1x32x1024) (k2_off1 k) S1x32x256.size (k2_off1_inb k))) x
      = blockScore keyBlk qry wrow cell ((Rect.unit (s := S1x128x1024) (k2_off2 k) S1x128x256.size (k2_off2_inb k)).emb x) := by
  obtain ⟨u, r, j, rfl⟩ : ∃ (u : Fin 1) (r : Fin 128) (j : Fin 256), x = ix3 u r j := ⟨x 0, x 1, x 2, eq_ix3 x⟩
  refine (pay_apply qry wrow cell _ u r j).trans ?_
  unfold tripScore blockScore
  refine congrArg₂ (· + ·) (Finset.sum_congr rfl fun h _ =>
    congrArg₂ (· * ·) (congrArg Ideal.tanh (congrArg₂ (· + ·) ?_ ?_)) rfl) rfl
  · refine congrArg qry (funext fun a => Fin.ext ?_)
    match a with
    | ⟨0, _⟩ => rfl
    | ⟨1, _⟩ => show r.val = 0 + 1 * r.val; omega
    | ⟨2, _⟩ => rfl
  · show keyBlk _ = keyBlk _
    refine congrArg keyBlk (funext fun a => Fin.ext ?_)
    match a with
    | ⟨0, _⟩ => rfl
    | ⟨1, _⟩ => show 0 + 1 * h.val = h.val; omega
    | ⟨2, _⟩ => rfl

/-! ## The run's pieces are all restrictions of the block's function -/

section Pieces

variable (𝒱 : Variants) (c : Dev nD) (bd : Option 𝒱.V) (i : grid2.Coords)
  (arg2 : Memref sig .tc .vmem S1x32x1024 .f32) (harg2 : arg2.IsWhole) (arg3 : Memref sig .tc .vmem S1x128x32 .f32) (harg3 : arg3.IsWhole)
  (arg4 : Memref sig .tc .vmem S1x32 .f32) (harg4 : arg4.IsWhole) (arg5 : Memref sig .tc .vmem S1x1 .f32) (harg5 : arg5.IsWhole)
  (arg6 : Memref sig .tc .vmem S1x128x1024 .f32) (harg6 : arg6.IsWhole)
  (qry : Vec Ideal S1x128x32 .f32) (wrow : Vec Ideal S1x32 .f32) (cell : Vec Ideal S1x1 .f32)
  (X : BufTy.Contents (Elt Ideal) arg2.view.ty)

/-- One trip writes one piece: the trip's value of the slab it loads, at the slab's place in the output block. -/
theorem trip_pieces (k : Fin k2_t1_loop.trips) :
    tripL_k2_t1 (F := Ideal) 𝒱 c bd i arg2 harg2 arg3 harg3 arg4 harg4 arg5 harg5 arg6 harg6 qry wrow cell X k
      = [⟨Rect.unit (s := S1x128x1024) (k2_off2 k) S1x128x256.size (k2_off2_inb k),
          k2_pay1 qry wrow cell (View.readAt (Elt Ideal) arg2.view (Rect.unit (s := S1x32x1024) (k2_off1 k) S1x32x256.size (k2_off1_inb k)).toLoadRect X)⟩] := by
  unfold tripL_k2_t1 trip_k2_t1
  rfl

/-- Every piece of the trips before `n` is the block's function (of the key block read back from the buffer) restricted
    to the piece's rectangle: by induction on the trips, each adding its one piece in front. -/
theorem pieces_blocks : ∀ n : Nat, n ≤ k2_t1_loop.trips →
    ∀ p ∈ pb_k2_t1 (F := Ideal) 𝒱 c bd i arg2 harg2 arg3 harg3 arg4 harg4 arg5 harg5 arg6 harg6 qry wrow cell X n,
      ∀ x : p.1.shape.Idx, p.2 x = blockScore (arg2.view.read (Elt Ideal) X) qry wrow cell (p.1.emb x)
  | 0, _, p, hp, _ => by rw [pb_k2_t1.eq_1] at hp; exact absurd hp List.not_mem_nil
  | n + 1, hn, p, hp, x => by
    have hlt : n < k2_t1_loop.trips := hn
    have e := pb_k2_t1_succ (F := Ideal) 𝒱 c bd i arg2 harg2 arg3 harg3 arg4 harg4 arg5 harg5 arg6 harg6 qry wrow cell X ⟨n, hlt⟩
    rw [show (⟨n, hlt⟩ : Fin k2_t1_loop.trips).val + 1 = n + 1 from rfl] at e
    rw [e, trip_pieces, List.mem_append, List.mem_singleton] at hp
    rcases hp with rfl | hp
    · rw [View.readAt_eq_ld]
      exact piece_eq _ qry wrow cell ⟨n, hlt⟩ x
    · exact pieces_blocks n (Nat.le_of_lt hlt) p hp x

end Pieces

/-! ## The block after the body -/

/-- After the body the output block holds `blockScore` of the four operand blocks: the run's pieces read back over
    whatever was there are, wherever a piece covers — everywhere — the function all of them restrict. -/
theorem out_eq (c : Dev nD) (i : grid2.Coords)
    (arg2 : Memref sig .tc .vmem S1x32x1024 .f32) (harg2 : arg2.IsWhole) (arg3 : Memref sig .tc .vmem S1x128x32 .f32) (harg3 : arg3.IsWhole)
    (arg4 : Memref sig .tc .vmem S1x32 .f32) (harg4 : arg4.IsWhole) (arg5 : Memref sig .tc .vmem S1x1 .f32) (harg5 : arg5.IsWhole)
    (arg6 : Memref sig .tc .vmem S1x128x1024 .f32) (harg6 : arg6.IsWhole)
    (x0 : Vec Ideal S1x32x1024 .f32) (x1 : Vec Ideal S1x128x32 .f32) (x2 : Vec Ideal S1x32 .f32) (x3 : Vec Ideal S1x1 .f32) :
    out2_A_4 (F := Ideal) c i arg2 harg2 arg3 harg3 arg4 harg4 arg5 harg5 arg6 harg6 x0 x1 x2 x3 = blockScore x0 x1 x2 x3 := by
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e0 : arg2.view.read (Elt Ideal) (harg2.unread x0) = x0 := harg2.read_unread x0
  have e1 : View.readAt (Elt Ideal) arg3.view (Rect.unit (s := S1x128x32) ![0, 0, 0] S1x128x32.size inb_S1x128x32_S1x128x32_0_0_0).toLoadRect (harg3.unread x1) = x1 := by
    rw [View.readAt_eq_ld, harg3.read_unread, View.ld_unit_zero (S := S1x128x32) hz3]
  have e2 : View.readAt (Elt Ideal) arg4.view (Rect.unit (s := S1x32) ![0, 0] S1x32.size inb_S1x32_S1x32_0_0).toLoadRect (harg4.unread x2) = x2 := by
    rw [View.readAt_eq_ld, harg4.read_unread, View.ld_unit_zero (S := S1x32) hz2]
  have e3 : View.readAt (Elt Ideal) arg5.view (Rect.unit (s := S1x1) ![0, 0] S1x1.size inb_S1x1_S1x1_0_0).toLoadRect (harg5.unread x3) = x3 := by
    rw [View.readAt_eq_ld, harg5.read_unread, View.ld_unit_zero (S := S1x1) hz2]
  unfold out2_A_4
  rw [View.read_writes_eq_canon _ _ _ (cover2_A_4 c i arg2 harg2 arg3 harg3 arg4 harg4 arg5 harg5 arg6 harg6 x0 x1 x2 x3)]
  funext y
  refine View.canon_apply_of_pieces (blockScore x0 x1 x2 x3) _ ?_ y
    (cover2_A_4 c i arg2 harg2 arg3 harg3 arg4 harg4 arg5 harg5 arg6 harg6 x0 x1 x2 x3 y)
  unfold kernelRun2_A
  dsimp only
  intro p hp x
  refine (pieces_blocks Variants.none c none i arg2 harg2 arg3 harg3 arg4 harg4 arg5 harg5 arg6 harg6 _ _ _ _ _ (Nat.le_refl _) p hp x).trans ?_
  rw [e0, e1, e2, e3]

end Cert.KernelIdeal.ScoreStage

end
-- ==== Proof.ScoreArray.lean ====
/-
  The scoring stage's output array, as one function of the four arrays the stage finds.

  The stage runs over a grid of 2 × 8 points; point (b, g) reads the whole [32, 1024] keys' hidden matrix of batch b,
  rows [128 g, 128 g + 128) of batch b of the queries' hidden array, the weight row and the bias cell, and writes back
  rows [128 g, 128 g + 128) of batch b of the scores. What the body leaves in the block is the block's function of its
  operand blocks; read where the blocks sit in their arrays, that is the restriction to the block of

      scoreOf [b, q, k] = Σ_h tanh (queryHidden[b, q, h] + keyHidden[b, h, k]) · weight[0, h]  +  bias[0, 0],

  and the sixteen blocks tile the array, so the array ends holding it.
-/
import proofs.«143010_j6597069767500_2_alg».proof.Proof.Gen.KernelIdeal.Frame
import proofs.«143010_j6597069767500_2_alg».proof.Proof.ScorePieces
import proofs.«143010_j6597069767500_2_alg».proof.Proof.ScoreSpec

set_option maxRecDepth 16384

noncomputable section

namespace Cert.KernelIdeal.ScoreStage

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The scores from the four arrays the stage is entered with. -/
abbrev scoresOf (c : Dev nD) : S2x1024x1024.Idx → EReal :=
  Cert.Score.scoreOf (V c main_v2) (V c main_v4) (V c main_v5) (V c main_v6)

/-- Where each window's block sits at a grid point, relative to the output's: the key matrix and the query rows share
    the output's batch, the query rows share its row group, everything else is at the origin. -/
theorem idx_facts : ∀ t : Fin cfg2.N,
    win2_0.index t (0 : Fin 3) = win2_4.index t (0 : Fin 3) ∧ win2_0.index t (1 : Fin 3) = 0 ∧ win2_0.index t (2 : Fin 3) = 0
    ∧ win2_1.index t (0 : Fin 3) = win2_4.index t (0 : Fin 3) ∧ win2_1.index t (1 : Fin 3) = win2_4.index t (1 : Fin 3)
    ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) ≤ 1 ∧ win2_4.index t (1 : Fin 3) ≤ 7 ∧ win2_4.index t (2 : Fin 3) = 0 :=
  (by decide +kernel : ∀ t : Fin grid2.N, _)

/-- Every (batch, row group) is some grid point's. -/
theorem idx_onto : ∀ (q0 : Fin 2) (q1 : Fin 8), ∃ t : Fin cfg2.N, win2_4.index t = ![q0.val, q1.val, 0] :=
  (by decide +kernel : ∀ (q0 : Fin 2) (q1 : Fin 8), ∃ t : Fin grid2.N, win2_4.index t = ![q0.val, q1.val, 0])

/-- What a grid point writes back is its block of the scores. -/
theorem flushed_eq (c : Dev nD) (t : Fin cfg2.N) :
    (dat2 V c).flushed 4 t = ((cfg2.win 4).blk t).view.read (Elt Ideal) (scoresOf V c) := by
  show (cfg2.win 4).cut (grid2.coords t) ((dat2 V c).after 4 t) = _
  rw [after2_4]
  unfold outsAt2
  rw [out_eq]
  obtain ⟨e00, e01, e02, e10, e11, e12, e20, e21, e30, e31, b0, b1, e42⟩ := idx_facts t
  funext j
  have hj0 : (j 0).val < 1 := (j 0).isLt
  have hj1 : (j 1).val < 128 := (j 1).isLt
  have hj2 : (j 2).val < 1024 := (j 2).isLt
  show blockScore (iblk2 V c 0 t) (iblk2 V c 1 t) (iblk2 V c 2 t) (iblk2 V c 3 t) j
    = Cert.Score.scoreOf (V c main_v2) (V c main_v4) (V c main_v5) (V c main_v6) (((cfg2.win 4).blk t).view.emb j)
  unfold blockScore Cert.Score.scoreOf Cert.Score.scoreAt
  refine congrArg₂ (· + ·) (Finset.sum_congr rfl fun h _ =>
    congrArg₂ (· * ·) (congrArg Ideal.tanh (congrArg₂ (· + ·) ?_ ?_)) ?_) ?_
  · show V c main_v4 (((cfg2.win 1).blk t).view.emb (ix3 0 (j 1) h)) = V c main_v4 _
    refine congrArg (V c main_v4) (funext fun a => Fin.ext ?_)
    match a with
    | ⟨0, _⟩ => show win2_1.index t (0 : Fin 3) * 1 + 1 * 0 = win2_4.index t (0 : Fin 3) * 1 + 1 * (j 0).val; omega
    | ⟨1, _⟩ => show win2_1.index t (1 : Fin 3) * 128 + 1 * (j 1).val = win2_4.index t (1 : Fin 3) * 128 + 1 * (j 1).val; omega
    | ⟨2, _⟩ => show win2_1.index t (2 : Fin 3) * 32 + 1 * h.val = h.val; omega
  · show V c main_v2 (((cfg2.win 0).blk t).view.emb (ix3 0 h (j 2))) = V c main_v2 _
    refine congrArg (V c main_v2) (funext fun a => Fin.ext ?_)
    match a with
    | ⟨0, _⟩ => show win2_0.index t (0 : Fin 3) * 1 + 1 * 0 = win2_4.index t (0 : Fin 3) * 1 + 1 * (j 0).val; omega
    | ⟨1, _⟩ => show win2_0.index t (1 : Fin 3) * 32 + 1 * h.val = h.val; omega
    | ⟨2, _⟩ => show win2_0.index t (2 : Fin 3) * 1024 + 1 * (j 2).val = win2_4.index t (2 : Fin 3) * 1024 + 1 * (j 2).val; omega
  · show V c main_v5 (((cfg2.win 2).blk t).view.emb (ix2 0 h)) = V c main_v5 _
    refine congrArg (V c main_v5) (funext fun a => Fin.ext ?_)
    match a with
    | ⟨0, _⟩ => show win2_2.index t (0 : Fin 2) * 1 + 1 * 0 = 0; omega
    | ⟨1, _⟩ => show win2_2.index t (1 : Fin 2) * 32 + 1 * h.val = h.val; omega
  · show V c main_v6 (((cfg2.win 3).blk t).view.emb (ix2 0 0)) = V c main_v6 _
    refine congrArg (V c main_v6) (funext fun a => Fin.ext ?_)
    match a with
    | ⟨0, _⟩ => show win2_3.index t (0 : Fin 2) * 1 + 1 * 0 = 0; omega
    | ⟨1, _⟩ => show win2_3.index t (1 : Fin 2) * 1 + 1 * 0 = 0; omega

/-- An index of the score array is in a grid point's block iff each coordinate is in the block's range on its axis. -/
theorem mem_blk (t : Fin cfg2.N) (i : S2x1024x1024.Idx) :
    i ∈ ((cfg2.win 4).blk t).view.set ↔ ∀ a : Fin 3, win2_4.index t a * S1x128x1024.size a ≤ (i a).val
      ∧ (i a).val < win2_4.index t a * S1x128x1024.size a + S1x128x1024.size a := by
  show i ∈ ((View.whole main_v7).slice (win2_4.rect t)).set ↔ _
  rw [View.set_slice_whole, Rect.mem_set_unit]
  exact Iff.rfl

/-- Every entry of the score array is in some grid point's block: batch `i 0`, row group `i 1 / 128`. -/
theorem cover (i : S2x1024x1024.Idx) :
    ∃ t : Fin cfg2.N, (cfg2.win 4).flush t = true ∧ i ∈ ((cfg2.win 4).blk t).view.set := by
  have hi0 : (i 0).val < 2 := (i 0).isLt
  have hi1 : (i 1).val < 1024 := (i 1).isLt
  have hi2 : (i 2).val < 1024 := (i 2).isLt
  obtain ⟨t, ht⟩ := idx_onto ⟨(i 0).val, hi0⟩ ⟨(i 1).val / 128, by omega⟩
  have q0 : win2_4.index t (0 : Fin 3) = (i 0).val := congrFun ht 0
  have q1 : win2_4.index t (1 : Fin 3) = (i 1).val / 128 := congrFun ht 1
  have q2 : win2_4.index t (2 : Fin 3) = 0 := congrFun ht 2
  refine ⟨t, flush2_4 t, ?_⟩
  rw [mem_blk]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 128 ≤ (i 1).val ∧ (i 1).val < win2_4.index t (1 : Fin 3) * 128 + 128; omega
  | ⟨2, _⟩ => show win2_4.index t (2 : Fin 3) * 1024 ≤ (i 2).val ∧ (i 2).val < win2_4.index t (2 : Fin 3) * 1024 + 1024; omega

/-- The score array after the stage, whatever contents the stage was entered with. -/
theorem scoreArray (c : Dev nD) : (dat2 V c).arrAt 4 cfg2.N = scoresOf V c :=
  (dat2 V c).arrAt_eq_of_cover 4 (scoresOf V c) (fun t _ => flushed_eq V c t) (cover)

end Cert.KernelIdeal.ScoreStage

end
-- ==== Proof.lean ====
/-
  The additive-attention scorer in three tiled stages computes the same scores as its plain reference.

  Both programs take keys, queries : [2, 1024, 512], a first-layer weight W1 : [1024, 32] with bias b1 : [32], and a
  second-layer weight W2 : [32, 1] with bias b2 : [1], and return, for every batch b, query q and key k,

      score[b, q, k] = Σ_h tanh (W1[0:512, h] · keys[b, k] + W1[512:1024, h] · queries[b, q] + b1[h]) · W2[h, 0] + b2[0].

  The tiled program first projects the keys (stored transposed, hidden unit before position), then projects the queries
  and folds b1 into that projection once, then, tile by tile of the (query, key) plane and slab by slab of the keys, adds
  the two hidden arrays, takes tanh, weights by W2, sums over the 32 hidden units and adds b2. The reference adds the
  keys' projection, the queries' projection and b1 in that order. Over the extended reals the two differ only in how
  the three summands under the tanh are grouped — (queries' + b1) + keys' against (keys' + queries') + b1 — and addition
  there is commutative and associative with no finiteness needed, so the precondition is never opened.

  The pieces: `Cert.Score.score` is the common function of the six arguments (ScoreSpec); the reference's result is it
  (RefScore); the tiled program's run ends with its result at the last boundary of the fold through its stages
  (KernelRun); that boundary holds the third stage's output array, which is `scoreOf` of the four arrays the stage
  finds (ScorePayload, ScorePieces, ScoreArray); and what it finds are the keys' hidden array, the queries' hidden array
  with b1 folded in, W2 as a row and b2 as a cell, each of the launched arguments (KeyStage, QueryStage). The three
  frames are the generated ones; no rewrite was applied in idealizing the program, so nothing is owed for that.
-/
import proofs.«143010_j6597069767500_2_alg».proof.Defs
import proofs.«143010_j6597069767500_2_alg».proof.Proof.Gen.Kernel
import proofs.«143010_j6597069767500_2_alg».proof.Proof.Gen.Kernel.Skeleton
import proofs.«143010_j6597069767500_2_alg».proof.Proof.Gen.Kernel.Loops
import proofs.«143010_j6597069767500_2_alg».proof.Proof.Gen.Kernel.Launch
import proofs.«143010_j6597069767500_2_alg».proof.Proof.Gen.Kernel.Points
import proofs.«143010_j6597069767500_2_alg».proof.Proof.Gen.Kernel.Frame
import proofs.«143010_j6597069767500_2_alg».proof.Proof.Gen.KernelIdeal
import proofs.«143010_j6597069767500_2_alg».proof.Proof.Gen.KernelIdeal.Skeleton
import proofs.«143010_j6597069767500_2_alg».proof.Proof.Gen.KernelIdeal.Loops
import proofs.«143010_j6597069767500_2_alg».proof.Proof.Gen.KernelIdeal.Launch
import proofs.«143010_j6597069767500_2_alg».proof.Proof.Gen.KernelIdeal.Points
import proofs.«143010_j6597069767500_2_alg».proof.Proof.Gen.KernelIdeal.Frame
import proofs.«143010_j6597069767500_2_alg».proof.Proof.Gen.ReferenceIdeal
import proofs.«143010_j6597069767500_2_alg».proof.Proof.Gen.ReferenceIdeal.Run
import proofs.«143010_j6597069767500_2_alg».proof.Proof.Gen.ReferenceIdeal.Read
import proofs.«143010_j6597069767500_2_alg».proof.Proof.Gen.Pre_finite_inputs
import proofs.«143010_j6597069767500_2_alg».proof.Proof.ScoreSpec
import proofs.«143010_j6597069767500_2_alg».proof.Proof.RefScore
import proofs.«143010_j6597069767500_2_alg».proof.Proof.KernelRun
import proofs.«143010_j6597069767500_2_alg».proof.Proof.KeyStage
import proofs.«143010_j6597069767500_2_alg».proof.Proof.QueryStage
import proofs.«143010_j6597069767500_2_alg».proof.Proof.ScoreArray
import Idealize.ShloMosaic.Adequacy
import Idealize.ShloMosaic.Init

noncomputable section

namespace Cert.Proof

open Idealize.ShloMosaic Idealize.ShloMosaic.TcCoe Idealize.SL.Sem

/-! ## The tiled program's result is the score of its arguments -/

section KernelResult

open Cert.KernelIdeal Cert.KernelIdeal.Gen

/-- The last boundary of the fold through the tiled program holds, in the result buffer, the score of the launched
    arguments: the third stage's array is `scoreOf` of what the stage finds, and it finds the two hidden arrays, the
    weight row and the bias cell of the arguments. -/
theorem kernel_result (m : (ℓ : Loc nD τ sig) → Buf (Elt Ideal) ℓ) (ρ : Dev nD → PrngReg) (c : Dev nD) :
    W6 m ρ c (Proc.devRef .tc main_v7)
      = Cert.Score.score (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W6_arr m ρ c 4).trans ?_
  refine (Cert.KernelIdeal.ScoreStage.scoreArray (V5 m ρ) c).trans ?_
  unfold Cert.KernelIdeal.ScoreStage.scoresOf Cert.Score.score
  rw [Cert.KernelIdeal.KeyStage.entry2_keyHidden, Cert.KernelIdeal.QueryStage.entry2_queryHidden,
    Cert.KernelIdeal.QueryStage.entry2_weightRow, Cert.KernelIdeal.QueryStage.entry2_biasCell]

end KernelResult

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no stage of its own: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealizing the tiled program rewrote nothing. -/
theorem preserves : Cert.preserves_Kernel_KernelIdeal := trivial

/-- Run from memories that agree on the six arguments, both programs end with the score of those arguments in their
    result buffers, and with the arguments unchanged. -/
theorem algebraic : Cert.algebraic_KernelIdeal_ReferenceIdeal := by
  intro m ρ m' ρ' _ hagree
  refine ⟨fun c => Cert.Score.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (kernel_result m ρ c), (h c).2⟩) (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.reference_eq_score,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
